-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2 : Shape := ⟨1, ![2]⟩
abbrev S64 : Shape := ⟨1, ![64]⟩
abbrev S1x32x2048 : Shape := ⟨3, ![1, 32, 2048]⟩
abbrev S4096x64 : Shape := ⟨2, ![4096, 64]⟩
abbrev S4096x4096 : Shape := ⟨2, ![4096, 4096]⟩
abbrev S4096x1 : Shape := ⟨2, ![4096, 1]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S1x32x2048 : S_.BroadcastsInDim S1x32x2048 (![] : Fin 0 → Fin S1x32x2048.rank)
  reducesTo_S1x32x2048_S_d0_1_2 : S1x32x2048.ReducesTo [0, 1, 2] S_
  bcast_S_S4096x64 : S_.BroadcastsInDim S4096x64 (![] : Fin 0 → Fin S4096x64.rank)
  reducesTo_S4096x64_S_d0_1 : S4096x64.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn_part3 {F : FTy → Type} [FloatOps F] (main_v48 : IVec S_ 1) (main_v49 : FVec F S4096x1 .f32) (main_v50 : FVec F S4096x1 .f32) : IVec S_ 1 :=
  let main_v51 : IVec S4096x1 1 := cmpf .olt main_v49 main_v50
  let main_c_19 : IVec S_ 1 := constantI S_ 1 1#1
  let main_v52 : IVec S_ 1 := (fun x v => Host.reduce IntOp.andi x v reducesTo_S4096x1_S_d0_1 h_S_) main_v51 main_c_19
  let main_v53 : IVec S_ 1 := andi main_v48 main_v52
  main_v53

def fn_part2 {F : FTy → Type} [FloatOps F] (main_arg8 : FVec F S4096x4096 .f32) (main_arg9 : FVec F S4096x1 .f32) (main_arg10 : FVec F S4096x1 .f32) (main_arg11 : FVec F S4096x1 .f32) (main_v33 : IVec S_ 1) : IVec S_ 1 :=
  let main_v34 : FVec F S4096x4096 .f32 := Host.absf main_arg8
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x1 .f32 := Host.absf main_arg9
  let main_cst_14 : FVec F S_ .f32 := constant S_ .f32 0x7F800000#32
  let main_v40 : FVec F S4096x1 .f32 := broadcastInDim S4096x1 ![] bcast_S_S4096x1 main_cst_14
  let main_v41 : IVec S4096x1 1 := cmpf .olt main_v39 main_v40
  let main_c_15 : IVec S_ 1 := constantI S_ 1 1#1
  let main_v42 : IVec S_ 1 := (fun x v => Host.reduce IntOp.andi x v reducesTo_S4096x1_S_d0_1 h_S_) main_v41 main_c_15
  let main_v43 : IVec S_ 1 := andi main_v38 main_v42
  let main_v44 : FVec F S4096x1 .f32 := Host.absf main_arg10
  let main_cst_16 : FVec F S_ .f32 := constant S_ .f32 0x7F800000#32
  let main_v45 : FVec F S4096x1 .f32 := broadcastInDim S4096x1 ![] bcast_S_S4096x1 main_cst_16
  let main_v46 : IVec S4096x1 1 := cmpf .olt main_v44 main_v45
  let main_c_17 : IVec S_ 1 := constantI S_ 1 1#1
  let main_v47 : IVec S_ 1 := (fun x v => Host.reduce IntOp.andi x v reducesTo_S4096x1_S_d0_1 h_S_) main_v46 main_c_17
  let main_v48 : IVec S_ 1 := andi main_v43 main_v47
  let main_v49 : FVec F S4096x1 .f32 := Host.absf main_arg11
  let main_cst_18 : FVec F S_ .f32 := constant S_ .f32 0x7F800000#32
  let main_v50 : FVec F S4096x1 .f32 := broadcastInDim S4096x1 ![] bcast_S_S4096x1 main_cst_18
  fn_part3 (F := F) main_v48 main_v49 main_v50

def fn_part1 {F : FTy → Type} [FloatOps F] (main_arg5 : FVec F S4096x64 .f32) (main_arg6 : FVec F S4096x4096 .f32) (main_arg7 : FVec F S4096x4096 .f32) (main_arg8 : FVec F S4096x4096 .f32) (main_arg9 : FVec F S4096x1 .f32) (main_arg10 : FVec F S4096x1 .f32) (main_arg11 : FVec F S4096x1 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S4096x64 .f32 := Host.absf main_arg5
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S4096x4096 .f32 := Host.absf main_arg6
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x4096 .f32 := Host.absf main_arg7
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg8 main_arg9 main_arg10 main_arg11 main_v33

def fn {F : FTy → Type} [FloatOps F] (main_arg0 : IVec S2 32) (main_arg1 : FVec F S64 .f32) (main_arg2 : FVec F S1x32x2048 .f32) (main_arg3 : FVec F S4096x64 .f32) (main_arg4 : FVec F S4096x64 .f32) (main_arg5 : FVec F S4096x64 .f32) (main_arg6 : FVec F S4096x4096 .f32) (main_arg7 : FVec F S4096x4096 .f32) (main_arg8 : FVec F S4096x4096 .f32) (main_arg9 : FVec F S4096x1 .f32) (main_arg10 : FVec F S4096x1 .f32) (main_arg11 : FVec F S4096x1 .f32) : IVec S_ 1 :=
  let main_v0 : FVec F S64 .f32 := Host.absf main_arg1
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S1x32x2048 .f32 := Host.absf main_arg2
  let main_cst_0 : FVec F S_ .f32 := constant S_ .f32 0x7F800000#32
  let main_v5 : FVec F S1x32x2048 .f32 := broadcastInDim S1x32x2048 ![] bcast_S_S1x32x2048 main_cst_0
  let main_v6 : IVec S1x32x2048 1 := cmpf .olt main_v4 main_v5
  let main_c_1 : IVec S_ 1 := constantI S_ 1 1#1
  let main_v7 : IVec S_ 1 := (fun x v => Host.reduce IntOp.andi x v reducesTo_S1x32x2048_S_d0_1_2 h_S_) main_v6 main_c_1
  let main_v8 : IVec S_ 1 := andi main_v3 main_v7
  let main_v9 : FVec F S4096x64 .f32 := Host.absf main_arg3
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x64 .f32 := Host.absf main_arg4
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg5 main_arg6 main_arg7 main_arg8 main_arg9 main_arg10 main_arg11 main_v13 main_v16
-- ==== Kernel.lean ====
abbrev S2 : Shape := ⟨1, ![2]⟩
abbrev S64 : Shape := ⟨1, ![64]⟩
abbrev S1x32x2048 : Shape := ⟨3, ![1, 32, 2048]⟩
abbrev S4096x64 : Shape := ⟨2, ![4096, 64]⟩
abbrev S4096x4096 : Shape := ⟨2, ![4096, 4096]⟩
abbrev S4096x1 : Shape := ⟨2, ![4096, 1]⟩
abbrev S32x2048 : Shape := ⟨2, ![32, 2048]⟩
abbrev S_ : Shape := ⟨0, ![]⟩
abbrev S2x1 : Shape := ⟨2, ![2, 1]⟩
abbrev S2x2048 : Shape := ⟨2, ![2, 2048]⟩
abbrev S1x4096 : Shape := ⟨2, ![1, 4096]⟩
abbrev S64x1 : Shape := ⟨2, ![64, 1]⟩
abbrev S512x4096 : Shape := ⟨2, ![512, 4096]⟩
abbrev S1x512 : Shape := ⟨2, ![1, 512]⟩

abbrev nBuf : Space → Nat
  | .hbm => 48
  | .vmem => 24
  | .smem => 0
  | _ => 0

abbrev bufTy : (tb : Table) → Fin (tcTables nBuf tb) → BufTy
  | .hbm, ⟨0, _⟩ => ⟨S2, .i32⟩
  | .hbm, ⟨1, _⟩ => ⟨S64, .f32⟩
  | .hbm, ⟨2, _⟩ => ⟨S1x32x2048, .f32⟩
  | .hbm, ⟨3, _⟩ => ⟨S4096x64, .f32⟩
  | .hbm, ⟨4, _⟩ => ⟨S4096x64, .f32⟩
  | .hbm, ⟨5, _⟩ => ⟨S4096x64, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S32x2048, .f32⟩
  | .hbm, ⟨13, _⟩ => ⟨S_, .i32⟩
  | .hbm, ⟨14, _⟩ => ⟨S2, .i32⟩
  | .hbm, ⟨15, _⟩ => ⟨S2, .i1⟩
  | .hbm, ⟨16, _⟩ => ⟨S_, .i32⟩
  | .hbm, ⟨17, _⟩ => ⟨S2, .i32⟩
  | .hbm, ⟨18, _⟩ => ⟨S2, .i32⟩
  | .hbm, ⟨19, _⟩ => ⟨S2, .i32⟩
  | .hbm, ⟨20, _⟩ => ⟨S2x1, .i32⟩
  | .hbm, ⟨21, _⟩ => ⟨S2x2048, .f32⟩
  | .hbm, ⟨22, _⟩ => ⟨S1x4096, .f32⟩
  | .hbm, ⟨23, _⟩ => ⟨S64x1, .f32⟩
  | .hbm, ⟨24, _⟩ => ⟨S4096x1, .f32⟩
  | .hbm, ⟨25, _⟩ => ⟨S4096x1, .f32⟩
  | .hbm, ⟨26, _⟩ => ⟨S1x4096, .f32⟩
  | .hbm, ⟨27, _⟩ => ⟨S4096x1, .f32⟩
  | .hbm, ⟨28, _⟩ => ⟨S4096x1, .f32⟩
  | .hbm, ⟨29, _⟩ => ⟨S1x4096, .f32⟩
  | .hbm, ⟨30, _⟩ => ⟨S4096x1, .f32⟩
  | .hbm, ⟨31, _⟩ => ⟨S4096x1, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S1x4096, .f32⟩
  | .hbm, ⟨36, _⟩ => ⟨S1x4096, .f32⟩
  | .hbm, ⟨37, _⟩ => ⟨S2x2048, .f32⟩
  | .hbm, ⟨38, _⟩ => ⟨S_, .i32⟩
  | .hbm, ⟨39, _⟩ => ⟨S2, .i32⟩
  | .hbm, ⟨40, _⟩ => ⟨S2, .i1⟩
  | .hbm, ⟨41, _⟩ => ⟨S_, .i32⟩
  | .hbm, ⟨42, _⟩ => ⟨S2, .i32⟩
  | .hbm, ⟨43, _⟩ => ⟨S2, .i32⟩
  | .hbm, ⟨44, _⟩ => ⟨S2, .i32⟩
  | .hbm, ⟨45, _⟩ => ⟨S2x1, .i32⟩
  | .hbm, ⟨46, _⟩ => ⟨S32x2048, .f32⟩
  | .hbm, ⟨47, _⟩ => ⟨S1x32x2048, .f32⟩
  | .local _ .vmem, ⟨0, _⟩ => ⟨S1x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x4096, .f32⟩
  | .local _ .vmem, ⟨16, _⟩ => ⟨S512x4096, .f32⟩
  | .local _ .vmem, ⟨17, _⟩ => ⟨S512x4096, .f32⟩
  | .local _ .vmem, ⟨18, _⟩ => ⟨S1x512, .f32⟩
  | .local _ .vmem, ⟨19, _⟩ => ⟨S1x512, .f32⟩
  | .local _ .vmem, ⟨20, _⟩ => ⟨S1x4096, .f32⟩
  | .local _ .vmem, ⟨21, _⟩ => ⟨S1x4096, .f32⟩
  | .local _ .vmem, ⟨22, _⟩ => ⟨S1x512, .f32⟩
  | .local _ .vmem, ⟨23, _⟩ => ⟨S1x512, .f32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev main_v20 : Ref sig .tc := ⟨.hbm, 36, rfl⟩
abbrev main_v21 : Ref sig .tc := ⟨.hbm, 37, rfl⟩
abbrev main_c_1 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c512_i32 : BitVec 32 := 512#32
  let v18 : BitVec 32 := Scalar.muli arg0 c512_i32
  v18
def k0_off1 (i : grid0.Coords) : Fin 2 → Nat :=
  let c0_10 : Index := 0#32
  let arg0 : BitVec 32 := BitVec.ofNat 32 (i 0).val
  let c512_i32 : BitVec 32 := 512#32
  let v18 : BitVec 32 := Scalar.muli arg0 c512_i32
  let v19 : BitVec 32 := v18
  let v20 : Index := Scalar.indexCast v19
  ![0, v20.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def k1_mult1 (i : grid1.Coords) : BitVec 32 :=
  let arg0 : BitVec 32 := BitVec.ofNat 32 (i 0).val
  let c512_i32 : BitVec 32 := 512#32
  let v10 : BitVec 32 := Scalar.muli arg0 c512_i32
  v10
def k1_off1 (i : grid1.Coords) : Fin 2 → Nat :=
  let c0_5 : Index := 0#32
  let arg0 : BitVec 32 := BitVec.ofNat 32 (i 0).val
  let c512_i32 : BitVec 32 := 512#32
  let v10 : BitVec 32 := Scalar.muli arg0 c512_i32
  let v11 : BitVec 32 := v10
  let v12 : Index := Scalar.indexCast v11
  ![0, v12.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S1x32x2048_S32x2048 : S1x32x2048.ShapeCasts S32x2048
  bcast_S_S2 : S_.BroadcastsInDim S2 (![] : Fin 0 → Fin S2.rank)
  bcast_S2_S2x1_0 : S2.BroadcastsInDim S2x1 (![0] : Fin 1 → Fin S2x1.rank)
  shapeCasts_S2x2048_S1x4096 : S2x2048.ShapeCasts S1x4096
  shapeCasts_S64_S64x1 : S64.ShapeCasts S64x1
  shapeCasts_S4096x1_S1x4096 : S4096x1.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x4096_S2x2048 : S1x4096.ShapeCasts S2x2048
  bcast_S32x2048_S1x32x2048_1_2 : S32x2048.BroadcastsInDim S1x32x2048 (![1, 2] : Fin 2 → Fin S1x32x2048.rank)
  gather_S32x2048_S2x1_S2x2048_1_0_n_n_0_1_12048_wf : GatherDims.WF S32x2048 S2x1 S2x2048 [1] [0] [] [0] [] 1 ![1, 2048]
  dot_S4096x64_S64x1_S4096x1_1_0_0_1_n_n_wf : DotDims.WF S4096x64 S64x1 S4096x1 [1] [0] [0] [1] [] []
  dot_S1x4096_S512x4096_S1x512_1_1_0_0_n_n_wf : DotDims.WF S1x4096 S512x4096 S1x512 [1] [1] [0] [0] [] []
  scatter_S32x2048_S2x1_S2x2048_1_0_0_1_wf : ScatterDims.WF S32x2048 S2x1 S2x2048 [1] [0] [0] 1
  hrank0 : 0 < grid0.rank
  k0_mult1_dvd : ∀ i : grid0.Coords, 512 ∣ (k0_mult1 i).toNat
  k0_off1_inb : ∀ i : grid0.Coords, ∀ a, (k0_off1 i) a + S1x512.size a ≤ S1x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .f32 = 32 ∨ (Rect.block (s := S1x4096) S1x512.size (cc0_transform_7 i) (hinb0_7 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S1x512.size a ≤ S1x4096.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .f32 = 32 ∨ (Rect.block (s := S4096x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x4096.size a
  hwx1_5 : ∀ i : grid1.Coords, EltTy.bits .f32 = 32 ∨ (Rect.block (s := S1x4096) S1x512.size (cc1_transform_5 i) (hinb1_5 i)).WholeWords (EltTy.packing .f32)

variable [Facts₀]

def gather_S32x2048_S2x1_S2x2048_1_0_n_n_0_1_12048 : GatherDims S32x2048 S2x1 S2x2048 where
  offsetDims := [1]
  collapsedSliceDims := [0]
  operandBatchingDims := []
  startIndicesBatchingDims := []
  startIndexMap := [0]
  indexVectorDim := 1
  sliceSizes := ![1, 2048]
  wf := gather_S32x2048_S2x1_S2x2048_1_0_n_n_0_1_12048_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S1x4096_S512x4096_S1x512_1_1_0_0_n_n : DotDims S1x4096 S512x4096 S1x512 where
  lhsContracting := [1]
  rhsContracting := [1]
  lhsNonContracting := [0]
  rhsNonContracting := [0]
  lhsBatch := []
  rhsBatch := []
  wf := dot_S1x4096_S512x4096_S1x512_1_1_0_0_n_n_wf
def scatter_S32x2048_S2x1_S2x2048_1_0_0_1 : ScatterDims S32x2048 S2x1 S2x2048 where
  updateWindowDims := [1]
  insertedWindowDims := [0]
  scatterDimsToOperandDims := [0]
  indexVectorDim := 1
  wf := scatter_S32x2048_S2x1_S2x2048_1_0_0_1_wf

abbrev win0_0 : Pipeline.Window sig grid0 :=
  Pipeline.Window.ofSpec (Memref.whole main_v8) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_0) S1x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_1) S1x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_2) S1x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v19_2) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19_0) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2 : Shape := ⟨1, ![2]⟩
abbrev S64 : Shape := ⟨1, ![64]⟩
abbrev S1x32x2048 : Shape := ⟨3, ![1, 32, 2048]⟩
abbrev S4096x64 : Shape := ⟨2, ![4096, 64]⟩
abbrev S4096x4096 : Shape := ⟨2, ![4096, 4096]⟩
abbrev S4096x1 : Shape := ⟨2, ![4096, 1]⟩
abbrev S32x2048 : Shape := ⟨2, ![32, 2048]⟩
abbrev S_ : Shape := ⟨0, ![]⟩
abbrev S2x1 : Shape := ⟨2, ![2, 1]⟩
abbrev S2x2048 : Shape := ⟨2, ![2, 2048]⟩
abbrev S64x1 : Shape := ⟨2, ![64, 1]⟩

abbrev nBuf : Space → Nat
  | .hbm => 72
  | .vmem => 0
  | .smem => 0
  | _ => 0

abbrev bufTy : (tb : Table) → Fin (tcTables nBuf tb) → BufTy
  | .hbm, ⟨0, _⟩ => ⟨S2, .i32⟩
  | .hbm, ⟨1, _⟩ => ⟨S64, .f32⟩
  | .hbm, ⟨2, _⟩ => ⟨S1x32x2048, .f32⟩
  | .hbm, ⟨3, _⟩ => ⟨S4096x64, .f32⟩
  | .hbm, ⟨4, _⟩ => ⟨S4096x64, .f32⟩
  | .hbm, ⟨5, _⟩ => ⟨S4096x64, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S32x2048, .f32⟩
  | .hbm, ⟨13, _⟩ => ⟨S_, .i32⟩
  | .hbm, ⟨14, _⟩ => ⟨S2, .i32⟩
  | .hbm, ⟨15, _⟩ => ⟨S2, .i1⟩
  | .hbm, ⟨16, _⟩ => ⟨S_, .i32⟩
  | .hbm, ⟨17, _⟩ => ⟨S2, .i32⟩
  | .hbm, ⟨18, _⟩ => ⟨S2, .i32⟩
  | .hbm, ⟨19, _⟩ => ⟨S2, .i32⟩
  | .hbm, ⟨20, _⟩ => ⟨S2x1, .i32⟩
  | .hbm, ⟨21, _⟩ => ⟨S2x2048, .f32⟩
  | .hbm, ⟨22, _⟩ => ⟨S4096x1, .f32⟩
  | .hbm, ⟨23, _⟩ => ⟨S64x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S2x2048, .f32⟩
  | .hbm, ⟨62, _⟩ => ⟨S_, .i32⟩
  | .hbm, ⟨63, _⟩ => ⟨S2, .i32⟩
  | .hbm, ⟨64, _⟩ => ⟨S2, .i1⟩
  | .hbm, ⟨65, _⟩ => ⟨S_, .i32⟩
  | .hbm, ⟨66, _⟩ => ⟨S2, .i32⟩
  | .hbm, ⟨67, _⟩ => ⟨S2, .i32⟩
  | .hbm, ⟨68, _⟩ => ⟨S2, .i32⟩
  | .hbm, ⟨69, _⟩ => ⟨S2x1, .i32⟩
  | .hbm, ⟨70, _⟩ => ⟨S32x2048, .f32⟩
  | .hbm, ⟨71, _⟩ => ⟨S1x32x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_c_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  shapeCasts_S1x32x2048_S32x2048 : S1x32x2048.ShapeCasts S32x2048
  bcast_S_S2 : S_.BroadcastsInDim S2 (![] : Fin 0 → Fin S2.rank)
  bcast_S2_S2x1_0 : S2.BroadcastsInDim S2x1 (![0] : Fin 1 → Fin S2x1.rank)
  shapeCasts_S2x2048_S4096x1 : S2x2048.ShapeCasts S4096x1
  shapeCasts_S64_S64x1 : S64.ShapeCasts S64x1
  bcast_S_S4096x1 : S_.BroadcastsInDim S4096x1 (![] : Fin 0 → Fin S4096x1.rank)
  shapeCasts_S4096x1_S2x2048 : S4096x1.ShapeCasts S2x2048
  bcast_S32x2048_S1x32x2048_1_2 : S32x2048.BroadcastsInDim S1x32x2048 (![1, 2] : Fin 2 → Fin S1x32x2048.rank)
  gather_S32x2048_S2x1_S2x2048_1_0_n_n_0_1_12048_wf : GatherDims.WF S32x2048 S2x1 S2x2048 [1] [0] [] [0] [] 1 ![1, 2048]
  dot_S4096x4096_S4096x1_S4096x1_1_0_0_1_n_n_wf : DotDims.WF S4096x4096 S4096x1 S4096x1 [1] [0] [0] [1] [] []
  dot_S4096x64_S64x1_S4096x1_1_0_0_1_n_n_wf : DotDims.WF S4096x64 S64x1 S4096x1 [1] [0] [0] [1] [] []
  scatter_S32x2048_S2x1_S2x2048_1_0_0_1_wf : ScatterDims.WF S32x2048 S2x1 S2x2048 [1] [0] [0] 1

variable [Facts₀]

def gather_S32x2048_S2x1_S2x2048_1_0_n_n_0_1_12048 : GatherDims S32x2048 S2x1 S2x2048 where
  offsetDims := [1]
  collapsedSliceDims := [0]
  operandBatchingDims := []
  startIndicesBatchingDims := []
  startIndexMap := [0]
  indexVectorDim := 1
  sliceSizes := ![1, 2048]
  wf := gather_S32x2048_S2x1_S2x2048_1_0_n_n_0_1_12048_wf
def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def scatter_S32x2048_S2x1_S2x2048_1_0_0_1 : ScatterDims S32x2048 S2x1 S2x2048 where
  updateWindowDims := [1]
  insertedWindowDims := [0]
  scatterDimsToOperandDims := [0]
  indexVectorDim := 1
  wf := scatter_S32x2048_S2x1_S2x2048_1_0_0_1_wf

class Facts : Prop extends Facts₀ where

variable [Facts]
-- ==== Proof.KernelRun.lean ====
/-
  The idealized kernel program's run, with its result array named.

  The program is four stretches: host operations (the gather of the two team rows, the three small bias products), the
  gate kernel, the candidate kernel, and host operations again (the scatter-add of the update back into the state).  Every
  weakly fair execution of it terminates without a fault; at the end each argument array is as launched, and the result
  array holds what the last stretch of host operations computes from the contents the second kernel leaves behind
  (`W4`: the fold of the buffer contents through the four stretches).  The later modules read that fold.
-/
import proofs.«154067_j39565238731289_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's contents
    and every argument array as launched. -/
theorem run : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Named

end
-- ==== Proof.LibRowsDot.lean ====
/-
  A MATRIX PRODUCT WITH THE RIGHT OPERAND TRANSPOSED, at the ideal values.

  An `[R, K]` array `a` times the transpose of an `[N, K]` array `w` contracts the columns of both: entry `(p, c)` of the
  result is `∑ k, a (p, k) · w (c, k)`, row `p` of `a` against row `c` of `w` (with `w = a` it is the Gram matrix of the rows
  of `a`).  Its dimension record is `DotDims.transposedRhs R K N` (contract axis 1 with axis 1, keep axis 0 of each, no
  batch axes); a printed program's record with the same six lists is that record by unfolding.  Proved here once for
  every `R`, `K`, `N`:
  • there is one contracted axis, of extent `K` (`rank_contr`, `size_contr`);
  • at the output index `(p, c)` and contraction position `k` the left operand is read at `(p, k)` and the right operand
    at `(c, k)` (`lhs_at`, `rhs_at`);
  • so the vector unit's product into a zero accumulator is that sum (`kdotT_apply`), and so is the host's
    `dot_general` over the same record (`hdotT_apply`).
  The sum is read off term by term: no algebra of the extended reals is used, and nothing needs to be finite.
-/
import Idealize.ShloMosaic.Lib.ValueIdx
import Idealize.ShloMosaic.PureOps.Ideal.Laws

noncomputable section

open scoped BigOperators

namespace Cert.RowsDot

open Idealize.ShloMosaic Idealize.ShloMosaic.ValueIdx

section facts

variable (R K N : ℕ)

/-- One axis is contracted. -/
theorem rank_contr : (DotDims.transposedRhs R K N).contr.rank = 1 := rfl

/-- Its extent is the shared extent `K`. -/
theorem size_contr : (DotDims.transposedRhs R K N).contr.size ⟨0, Nat.one_pos⟩ = K := rfl

/-- The left operand's index at output `(p, c)`, contraction position `k`: row `p`, column `k`. -/
theorem lhs_at (p : Fin R) (c : Fin N) (k : Fin K) :
    (DotDims.transposedRhs R K N).lhsIdx (ix2 p c) ((contrEquiv1 (DotDims.transposedRhs R K N) K rfl rfl).symm k) = ix2 p k := by
  have hk := contrEquiv1_symm_val (DotDims.transposedRhs R K N) K rfl rfl k
  funext a
  apply Fin.ext
  match a with
  | ⟨0, _⟩ =>
    show ((DotDims.transposedRhs R K N).lhsIdx (ix2 p c) ((contrEquiv1 (DotDims.transposedRhs R K N) K rfl rfl).symm k) 0).val = p.val
    unfold DotDims.lhsIdx
    rw [dif_neg (show ¬ (0 : Fin 2) ∈ (DotDims.transposedRhs R K N).lhsBatch from List.not_mem_nil),
      dif_pos (show (0 : Fin 2) ∈ (DotDims.transposedRhs R K N).lhsNonContracting from List.mem_singleton.mpr rfl)]
    rfl
  | ⟨1, _⟩ => exact ((DotDims.transposedRhs R K N).lhsIdx_val_of_single rfl (ix2 p c) _).trans hk

/-- The right operand's index at output `(p, c)`, contraction position `k`: row `c`, column `k`. -/
theorem rhs_at (p : Fin R) (c : Fin N) (k : Fin K) :
    (DotDims.transposedRhs R K N).rhsIdx (ix2 p c) ((contrEquiv1 (DotDims.transposedRhs R K N) K rfl rfl).symm k) = ix2 c k := by
  have hk := contrEquiv1_symm_val (DotDims.transposedRhs R K N) K rfl rfl k
  funext a
  apply Fin.ext
  match a with
  | ⟨0, _⟩ =>
    show ((DotDims.transposedRhs R K N).rhsIdx (ix2 p c) ((contrEquiv1 (DotDims.transposedRhs R K N) K rfl rfl).symm k) 0).val = c.val
    unfold DotDims.rhsIdx
    rw [dif_neg (show ¬ (0 : Fin 2) ∈ (DotDims.transposedRhs R K N).rhsBatch from List.not_mem_nil),
      dif_pos (show (0 : Fin 2) ∈ (DotDims.transposedRhs R K N).rhsNonContracting from List.mem_singleton.mpr rfl)]
    rfl
  | ⟨1, _⟩ => exact ((DotDims.transposedRhs R K N).rhsIdx_val_of_single rfl (ix2 p c) _).trans hk

end facts

/-- The sum over the one-axis contraction index, re-indexed by that axis's coordinate. -/
theorem contr_sum {R K N : ℕ} {φ₁ φ₂ : FTy} (l : FVec Ideal ⟨2, ![R, K]⟩ φ₁) (r : FVec Ideal ⟨2, ![N, K]⟩ φ₂)
    (p : Fin R) (c : Fin N) :
    (∑ q : (DotDims.transposedRhs R K N).contr.Idx,
        l ((DotDims.transposedRhs R K N).lhsIdx (ix2 p c) q) * r ((DotDims.transposedRhs R K N).rhsIdx (ix2 p c) q))
      = ∑ k : Fin K, l (ix2 p k) * r (ix2 c k) := by
  rw [← Equiv.sum_comp (contrEquiv1 (DotDims.transposedRhs R K N) K rfl rfl).symm]
  exact Finset.sum_congr rfl fun k _ => by rw [lhs_at R K N p c k, rhs_at R K N p c k]

/-- The vector unit's product into the zero accumulator, read at `(p, c)`: row `p` of `a` against row `c` of `w`. -/
theorem kdotT_apply {R K N : ℕ} {φ₁ φ₂ : FTy} (prec : Option ContractPrecision)
    (a : FVec Ideal ⟨2, ![R, K]⟩ φ₁) (w : FVec Ideal ⟨2, ![N, K]⟩ φ₂) (p : Fin R) (c : Fin N) :
    matmul (DotDims.transposedRhs R K N) prec a w (constant ⟨2, ![R, N]⟩ .f32 0x00000000#32) (ix2 p c)
      = ∑ k : Fin K, a (ix2 p k) * w (ix2 c k) := by
  show FloatOps.matmul (DotDims.transposedRhs R K N) prec a w (constant ⟨2, ![R, N]⟩ .f32 0x00000000#32) (ix2 p c) = _
  rw [Ideal.matmul_constant_zero_apply]
  exact contr_sum a w p c

/-- The host's `dot_general` over the same record, read at `(p, c)`: the same sum. -/
theorem hdotT_apply {R K N : ℕ} {φ₁ φ₂ : FTy} (prec : Option ContractPrecision)
    (a : FVec Ideal ⟨2, ![R, K]⟩ φ₁) (w : FVec Ideal ⟨2, ![N, K]⟩ φ₂) (p : Fin R) (c : Fin N) :
    Host.dotGeneral (DotDims.transposedRhs R K N) prec a w (ix2 p c) = ∑ k : Fin K, a (ix2 p k) * w (ix2 c k) := by
  simp only [Host.dotGeneral]
  rw [Ideal.dotGeneral_apply]
  exact contr_sum a w p c

end Cert.RowsDot

end
-- ==== Proof.Spec.lean ====
/-
  A GATED RECURRENT UPDATE OF ONE STATE VECTOR, on the extended reals.

  A state vector `x` of length `n` is updated through two gates and a candidate:
      z = σ(Az·x + bz),   r = σ(Ar·x + br),   m = tanh(Am·(r ∘ x) + bm),   Δ = (z ∘ x + (1 − z) ∘ m) − x,
  with `σ` the logistic function, `∘` the entrywise product and each `A` an `n × n` matrix.  `gate` and `delta` state
  this with every matrix–vector product written row against vector, `∑ k, x k · A j k`, and each bias one vector.

  A second arrangement of the same numbers writes each product as `∑ k, A j k · x k` and adds its bias in two steps,
  `(A·x + B) + d` (or `(A·x + B) − d`).  `delta_two_step` says the two arrangements agree.  Only commutativity of the
  product and associativity of the sum are used, which hold on all extended reals: nothing needs to be finite.
-/
import Idealize.ShloMosaic.PureOps.Ideal.Laws
import Idealize.ShloMosaic.Lib.ValueIdx

noncomputable section

open scoped BigOperators

namespace Cert.GatedUpdate

open Idealize.ShloMosaic

variable {n : ℕ}

/-- One gate at entry `j`: the logistic function of row `j` of `A` against `x`, plus the bias. -/
def gate (x : Fin n → EReal) (A : Fin n → Fin n → EReal) (b : Fin n → EReal) (j : Fin n) : EReal :=
  Ideal.logistic ((∑ k : Fin n, x k * A j k) + b j)

/-- The candidate's argument at entry `j`: row `j` of `Am` against the reset state `y`, plus the bias. -/
def candArg (y : Fin n → EReal) (Am : Fin n → Fin n → EReal) (bm : Fin n → EReal) (j : Fin n) : EReal :=
  (∑ k : Fin n, y k * Am j k) + bm j

/-- The update at entry `j`, from the update gate's value `zj`, the state's entry `xj` and the candidate's
    argument `a`: `(z·x + (1 − z)·tanh a) − x`; `one` is the unit. -/
def mix (one zj xj a : EReal) : EReal := (zj * xj + (one - zj) * Ideal.tanh a) - xj

/-- The unit as the programs spell it: the single-precision word of 1.0. -/
abbrev one : EReal := Ideal.ofBits .f32 0x3F800000#32

/-- The whole update at entry `j`. -/
def delta (one : EReal) (x : Fin n → EReal) (Az Ar Am : Fin n → Fin n → EReal) (bz br bm : Fin n → EReal)
    (j : Fin n) : EReal :=
  mix one (gate x Az bz j) (x j) (candArg (fun k => gate x Ar br k * x k) Am bm j)

/-- A row against a vector, in either order of the factors. -/
theorem dot_swap (a x : Fin n → EReal) : (∑ k : Fin n, a k * x k) = ∑ k : Fin n, x k * a k :=
  Finset.sum_congr rfl fun k _ => mul_comm (a k) (x k)

/-- The logistic function is the quotient `1 / (1 + e^(-v))`, on every extended real. -/
theorem logistic_quotient (v : EReal) : Ideal.div 1 (1 + Ideal.exp (-v)) = Ideal.logistic v := rfl

/-- A gate whose bias is added in two steps. -/
theorem gate_add (x : Fin n → EReal) (A : Fin n → Fin n → EReal) (bu d : Fin n → EReal) (j : Fin n) :
    Ideal.logistic (((∑ k : Fin n, A j k * x k) + bu j) + d j) = gate x A (fun i => bu i + d i) j := by
  unfold gate
  rw [dot_swap, add_assoc]

/-- A gate whose bias is one term added and one subtracted. -/
theorem gate_sub (x : Fin n → EReal) (A : Fin n → Fin n → EReal) (bu d : Fin n → EReal) (j : Fin n) :
    Ideal.logistic (((∑ k : Fin n, A j k * x k) + bu j) - d j) = gate x A (fun i => bu i - d i) j := by
  unfold gate
  rw [dot_swap, sub_eq_add_neg, add_assoc, ← sub_eq_add_neg]

/-- The candidate's argument with its bias added in two steps. -/
theorem candArg_add (y : Fin n → EReal) (Am : Fin n → Fin n → EReal) (bu d : Fin n → EReal) (j : Fin n) :
    ((∑ k : Fin n, Am j k * y k) + bu j) + d j = candArg y Am (fun i => bu i + d i) j := by
  unfold candArg
  rw [dot_swap, add_assoc]

/-- The two arrangements of the update agree. -/
theorem delta_two_step (one : EReal) (x : Fin n → EReal) (Az Ar Am : Fin n → Fin n → EReal)
    (bzu dz bru dr bmu dm : Fin n → EReal) (j : Fin n) :
    mix one (Ideal.logistic (((∑ k : Fin n, Az j k * x k) + bzu j) + dz j)) (x j)
        (((∑ k : Fin n, Am j k * (Ideal.logistic (((∑ l : Fin n, Ar k l * x l) + bru k) - dr k) * x k)) + bmu j) + dm j)
      = delta one x Az Ar Am (fun i => bzu i + dz i) (fun i => bru i - dr i) (fun i => bmu i + dm i) j := by
  unfold delta
  rw [gate_add, ← candArg_add]
  simp only [gate_sub]

/-! ## The same on arrays: the state and the biases kept as one row `[1, 4096]`, the matrices as `[4096, 4096]` -/

open Idealize.ShloMosaic.ValueIdx

/-- A row array `[1, 4096]` of extended reals. -/
abbrev RowArr := (⟨2, ![1, 4096]⟩ : Shape).Idx → EReal
/-- A square array `[4096, 4096]` of extended reals. -/
abbrev MatArr := (⟨2, ![4096, 4096]⟩ : Shape).Idx → EReal

/-- The row's entries as a vector. -/
def rowVec (X : RowArr) : Fin 4096 → EReal := fun k => X (ix2 0 k)
/-- The square array's entries as a matrix. -/
def matOf (A : MatArr) : Fin 4096 → Fin 4096 → EReal := fun j k => A (ix2 j k)

/-- A gate, as a row: entry `(0, j)` is the gate at `j`. -/
def gateRow (X : RowArr) (A : MatArr) (b : RowArr) : RowArr := fun i => gate (rowVec X) (matOf A) (rowVec b) (i 1)
/-- The reset state `r ∘ x`, as a row. -/
def resetRow (X : RowArr) (A : MatArr) (b : RowArr) : RowArr := fun i => gateRow X A b i * X i
/-- The update from a given update gate `Z` and reset state `RX`, as a row. -/
def deltaRow (one : EReal) (RX : RowArr) (Am : MatArr) (bm Z X : RowArr) : RowArr :=
  fun i => mix one (Z i) (X i) (candArg (rowVec RX) (matOf Am) (rowVec bm) (i 1))

/-- With the gate row and the reset row of the same state put in, the row update is the update. -/
theorem deltaRow_gates (one : EReal) (X : RowArr) (Az Ar Am : MatArr) (bz br bm : RowArr) (j : Fin 4096) :
    deltaRow one (resetRow X Ar br) Am bm (gateRow X Az bz) X (ix2 0 j)
      = delta one (rowVec X) (matOf Az) (matOf Ar) (matOf Am) (rowVec bz) (rowVec br) (rowVec bm) j := rfl

end Cert.GatedUpdate

end
-- ==== Proof.Region0.lean ====
/-
  THE GATE KERNEL (the first of the two kernels): what its three result rows hold after all eight grid points.

  The state row `x` [1, 4096] is read whole at every point; point `t` reads rows `512 t … 512 t + 511` of the two weight
  matrices and columns `512 t … 512 t + 511` of the two bias rows, and writes the same columns of three rows:
      z(0, j) = σ(∑ k, x(0, k) · Az(j, k) + bz(0, j)),   r likewise from Ar and br,   rx(0, j) = r(0, j) · x(0, j).
  The eight column blocks tile `[1, 4096]`, so afterwards the three rows are `gateRow`, `gateRow` and `resetRow` of the
  arrays the kernel was entered with.  The matrix product is a contraction of the columns of both operands; the
  change of number format before it is the identity on extended reals.
-/
import proofs.«154067_j39565238731289_2_alg».proof.Proof.Gen.KernelIdeal.Frame
import proofs.«154067_j39565238731289_2_alg».proof.Proof.LibRowsDot
import proofs.«154067_j39565238731289_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Gates

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen Cert.GatedUpdate

theorem hz : (![0, 0] : Fin 2 → Nat) = fun _ => 0 := funext fun a => by fin_cases a <;> rfl

/-! ## What the body leaves in each output's buffer: its one store's value -/

section pieces
variable {F : FTy → Type} [FloatOps F]

/-- The slice of the state row the body loads at grid coordinates `i`. -/
abbrev xslice (i : grid0.Coords) (x0 : Vec F S1x4096 .f32) : Vec F S1x512 .f32 :=
  View.ld x0 (Rect.unit (s := S1x4096) (k0_off1 i) S1x512.size (k0_off1_inb i))

theorem out5_eq (c : Dev nD) (i : grid0.Coords) (a1 : Memref sig .tc .vmem S1x4096 .f32) (h1 : a1.IsWhole) (a2 : Memref sig .tc .vmem S512x4096 .f32) (h2 : a2.IsWhole) (a3 : Memref sig .tc .vmem S512x4096 .f32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S1x512 .f32) (h8 : a8.IsWhole) (x0 : Vec F S1x4096 .f32) (x1 : Vec F S512x4096 .f32) (x2 : Vec F S512x4096 .f32) (x3 : Vec F S1x512 .f32) (x4 : Vec F S1x512 .f32) : out0_A_5 c i a1 h1 a2 h2 a3 h3 a4 h4 a5 h5 a6 h6 a7 h7 a8 h8 x0 x1 x2 x3 x4 = k0_pay2 x0 x1 x3 := by
  unfold out0_A_5
  rw [View.read_writes_eq_canon _ _ _ (cover0_A_5 c i a1 h1 a2 h2 a3 h3 a4 h4 a5 h5 a6 h6 a7 h7 a8 h8 x0 x1 x2 x3 x4)]
  unfold kernelRun0_A
  dsimp only
  rw [View.canon_unit_zero hz]
  simp only [View.readAt_eq_ld, h1.read_unread, h2.read_unread, h4.read_unread, View.ld_unit_zero (S := S1x4096) hz,
    View.ld_unit_zero (S := S512x4096) hz, View.ld_unit_zero (S := S1x512) hz]

theorem out6_eq (c : Dev nD) (i : grid0.Coords) (a1 : Memref sig .tc .vmem S1x4096 .f32) (h1 : a1.IsWhole) (a2 : Memref sig .tc .vmem S512x4096 .f32) (h2 : a2.IsWhole) (a3 : Memref sig .tc .vmem S512x4096 .f32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S1x512 .f32) (h8 : a8.IsWhole) (x0 : Vec F S1x4096 .f32) (x1 : Vec F S512x4096 .f32) (x2 : Vec F S512x4096 .f32) (x3 : Vec F S1x512 .f32) (x4 : Vec F S1x512 .f32) : out0_A_6 c i a1 h1 a2 h2 a3 h3 a4 h4 a5 h5 a6 h6 a7 h7 a8 h8 x0 x1 x2 x3 x4 = k0_pay3 x0 x2 x4 := by
  unfold out0_A_6
  rw [View.read_writes_eq_canon _ _ _ (cover0_A_6 c i a1 h1 a2 h2 a3 h3 a4 h4 a5 h5 a6 h6 a7 h7 a8 h8 x0 x1 x2 x3 x4)]
  unfold kernelRun0_A
  dsimp only
  rw [View.canon_unit_zero hz]
  simp only [View.readAt_eq_ld, h1.read_unread, h3.read_unread, h5.read_unread, View.ld_unit_zero (S := S1x4096) hz,
    View.ld_unit_zero (S := S512x4096) hz, View.ld_unit_zero (S := S1x512) hz]

theorem out7_eq (c : Dev nD) (i : grid0.Coords) (a1 : Memref sig .tc .vmem S1x4096 .f32) (h1 : a1.IsWhole) (a2 : Memref sig .tc .vmem S512x4096 .f32) (h2 : a2.IsWhole) (a3 : Memref sig .tc .vmem S512x4096 .f32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S1x512 .f32) (h8 : a8.IsWhole) (x0 : Vec F S1x4096 .f32) (x1 : Vec F S512x4096 .f32) (x2 : Vec F S512x4096 .f32) (x3 : Vec F S1x512 .f32) (x4 : Vec F S1x512 .f32) : out0_A_7 c i a1 h1 a2 h2 a3 h3 a4 h4 a5 h5 a6 h6 a7 h7 a8 h8 x0 x1 x2 x3 x4 = k0_pay4 x0 x2 x4 (xslice i x0) := by
  unfold out0_A_7
  rw [View.read_writes_eq_canon _ _ _ (cover0_A_7 c i a1 h1 a2 h2 a3 h3 a4 h4 a5 h5 a6 h6 a7 h7 a8 h8 x0 x1 x2 x3 x4)]
  unfold kernelRun0_A
  dsimp only
  rw [View.canon_unit_zero hz]
  simp only [View.readAt_eq_ld, h1.read_unread, h3.read_unread, h5.read_unread, View.ld_unit_zero (S := S1x4096) hz,
    View.ld_unit_zero (S := S512x4096) hz, View.ld_unit_zero (S := S1x512) hz]

end pieces

/-! ## The stored values at an index, on extended reals -/

/-- The printed contraction record is the "right operand transposed" one. -/
theorem dot_eq : dot_S1x4096_S512x4096_S1x512_1_1_0_0_n_n = DotDims.transposedRhs 1 4096 512 := rfl

/-- A gate's stored value at column `q` of the block: the logistic function of the state row against row `q` of the
    weight block, plus the bias block's entry. -/
theorem pay2_at (x0 : Vec Ideal S1x4096 .f32) (x1 : Vec Ideal S512x4096 .f32) (x3 : Vec Ideal S1x512 .f32) (q : Fin 512) :
    k0_pay2 x0 x1 x3 (ix2 0 q) = Ideal.logistic ((∑ k : Fin 4096, x0 (ix2 0 k) * x1 (ix2 q k)) + x3 (ix2 0 q)) := by
  unfold k0_pay2 k0_pay1
  dsimp only
  rw [shapeCast_self, shapeCast_self, dot_eq]
  exact congrArg (fun v : EReal => Ideal.logistic (v + x3 (ix2 0 q)))
    (Cert.RowsDot.kdotT_apply (R := 1) (K := 4096) (N := 512) none (truncf .bf16 x0 bitsLt_bf16_f32)
      (truncf .bf16 x1 bitsLt_bf16_f32) 0 q)

theorem pay3_at (x0 : Vec Ideal S1x4096 .f32) (x2 : Vec Ideal S512x4096 .f32) (x4 : Vec Ideal S1x512 .f32) (q : Fin 512) :
    k0_pay3 x0 x2 x4 (ix2 0 q) = Ideal.logistic ((∑ k : Fin 4096, x0 (ix2 0 k) * x2 (ix2 q k)) + x4 (ix2 0 q)) := by
  unfold k0_pay3 k0_pay1
  dsimp only
  rw [shapeCast_self, shapeCast_self, dot_eq]
  exact congrArg (fun v : EReal => Ideal.logistic (v + x4 (ix2 0 q)))
    (Cert.RowsDot.kdotT_apply (R := 1) (K := 4096) (N := 512) none (truncf .bf16 x0 bitsLt_bf16_f32)
      (truncf .bf16 x2 bitsLt_bf16_f32) 0 q)

/-- The reset state's stored value: the reset gate's times the loaded slice of the state row. -/
theorem pay4_at (x0 : Vec Ideal S1x4096 .f32) (x2 : Vec Ideal S512x4096 .f32) (x4 : Vec Ideal S1x512 .f32)
    (v : Vec Ideal S1x512 .f32) (q : Fin 512) :
    k0_pay4 x0 x2 x4 v (ix2 0 q) = k0_pay3 x0 x2 x4 (ix2 0 q) * v (ix2 0 q) := by
  unfold k0_pay4
  rw [shapeCast_self]
  rfl

/-! ## The printed index maps, decided once over the eight grid points -/

/-- The state row's window never moves; the weight windows move down the rows with the point; the bias and the three
    output windows move along the columns with the point; the slice of the state row the body loads starts at column
    `512 t`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ k0_off1 (grid0.coords t) (0 : Fin 2) = 0 ∧ k0_off1 (grid0.coords t) (1 : Fin 2) = t.val * 512 :=
  (by decide +kernel : ∀ t : Fin grid0.N, _)

/-! ## One point's stored block is a block of the whole row -/

/-- At a point whose blocks start at row (column) `512 T`, a gate's stored value at `y` is the gate row of the whole
    arrays at the matching column `512 T + y₁`. -/
theorem gate_point (pay : Vec Ideal S1x512 .f32) (x0 : Vec Ideal S1x4096 .f32) (x1 : Vec Ideal S512x4096 .f32)
    (x3 : Vec Ideal S1x512 .f32)
    (hpay : ∀ q : Fin 512, pay (ix2 0 q) = Ideal.logistic ((∑ k : Fin 4096, x0 (ix2 0 k) * x1 (ix2 q k)) + x3 (ix2 0 q)))
    (X : RowArr) (A : MatArr) (b : RowArr) (T : ℕ) (y : S1x512.Idx) (i : S1x4096.Idx)
    (hi : (i 1).val = T * 512 + (y 1).val)
    (e0 : ∀ z : S1x4096.Idx, x0 z = X z)
    (e1 : ∀ (q : Fin 512) (k : Fin 4096) (j : Fin 4096), j.val = T * 512 + q.val → x1 (ix2 q k) = A (ix2 j k))
    (e3 : ∀ (q : Fin 512) (j : Fin 4096), j.val = T * 512 + q.val → x3 (ix2 0 q) = b (ix2 0 j)) :
    pay y = gateRow X A b i := by
  obtain ⟨p, q, rfl⟩ : ∃ (p : Fin 1) (q : Fin 512), y = ix2 p q := ⟨y 0, y 1, eq_ix2 y⟩
  obtain rfl : p = 0 := Subsingleton.elim _ _
  obtain ⟨p', j, rfl⟩ : ∃ (p' : Fin 1) (j : Fin 4096), i = ix2 p' j := ⟨i 0, i 1, eq_ix2 i⟩
  obtain rfl : p' = 0 := Subsingleton.elim _ _
  have hj : j.val = T * 512 + q.val := hi
  rw [hpay q, e3 q j hj]
  show _ = Ideal.logistic ((∑ k : Fin 4096, X (ix2 0 k) * A (ix2 j k)) + b (ix2 0 j))
  refine congrArg (fun v : EReal => Ideal.logistic (v + b (ix2 0 j))) ?_
  exact Finset.sum_congr rfl fun k _ => by rw [e0 (ix2 0 k), e1 q k j hj]

/-- The same for the reset state: the reset gate's value times the state row's entry at the matching column. -/
theorem reset_point (x0 : Vec Ideal S1x4096 .f32) (x2 : Vec Ideal S512x4096 .f32) (x4 : Vec Ideal S1x512 .f32)
    (v : Vec Ideal S1x512 .f32) (X : RowArr) (A : MatArr) (b : RowArr) (T : ℕ) (y : S1x512.Idx) (i : S1x4096.Idx)
    (hi : (i 1).val = T * 512 + (y 1).val)
    (e0 : ∀ z : S1x4096.Idx, x0 z = X z)
    (e1 : ∀ (q : Fin 512) (k : Fin 4096) (j : Fin 4096), j.val = T * 512 + q.val → x2 (ix2 q k) = A (ix2 j k))
    (e3 : ∀ (q : Fin 512) (j : Fin 4096), j.val = T * 512 + q.val → x4 (ix2 0 q) = b (ix2 0 j))
    (ev : ∀ (q : Fin 512) (j : Fin 4096), j.val = T * 512 + q.val → v (ix2 0 q) = X (ix2 0 j)) :
    k0_pay4 x0 x2 x4 v y = resetRow X A b i := by
  obtain ⟨p, q, rfl⟩ : ∃ (p : Fin 1) (q : Fin 512), y = ix2 p q := ⟨y 0, y 1, eq_ix2 y⟩
  obtain rfl : p = 0 := Subsingleton.elim _ _
  obtain ⟨p', j, rfl⟩ : ∃ (p' : Fin 1) (j : Fin 4096), i = ix2 p' j := ⟨i 0, i 1, eq_ix2 i⟩
  obtain rfl : p' = 0 := Subsingleton.elim _ _
  have hj : j.val = T * 512 + q.val := hi
  rw [pay4_at, ev q j hj]
  show _ = gateRow X A b (ix2 0 j) * X (ix2 0 j)
  rw [gate_point (k0_pay3 x0 x2 x4) x0 x2 x4 (pay3_at x0 x2 x4) X A b T (ix2 0 q) (ix2 0 j) hj e0 e1 e3]

/-! ## The blocks the windows stage, as parts of the arrays the kernel is entered with -/

section finals
variable (V : (c : Dev nD) → (b : Ref sig .tc) → Buf (Elt Ideal) ((c : Thread nD τ).loc b))

/-- The state row's window stages the whole row at every point. -/
theorem blk_x (c : Dev nD) (t : Fin cfg0.N) (z : S1x4096.Idx) : iblk0 V c 0 t z = V c (Pipeline.arrRef spec0 0) z := by
  obtain ⟨f00, f01, f10, f11, f20, f21, f30, f31, f40, f41, f50, f51, f60, f61, f70, f71, fo0, fo1⟩ := idx_facts t
  show V c (Pipeline.arrRef spec0 0) (((cfg0.win 0).blk t).view.emb z) = _
  refine congrArg (V c (Pipeline.arrRef spec0 0)) ?_
  funext a; apply Fin.ext
  match a with
  | ⟨0, _⟩ => show win0_0.index t (0 : Fin 2) * 1 + 1 * (z 0).val = (z 0).val; omega
  | ⟨1, _⟩ => show win0_0.index t (1 : Fin 2) * 4096 + 1 * (z 1).val = (z 1).val; omega

/-- A weight window stages rows `512 t …` of its matrix. -/
theorem blk_w1 (c : Dev nD) (t : Fin cfg0.N) (q : Fin 512) (k : Fin 4096) (j : Fin 4096) (hj : j.val = t.val * 512 + q.val) :
    iblk0 V c 1 t (ix2 q k) = V c (Pipeline.arrRef spec0 1) (ix2 j k) := by
  obtain ⟨f00, f01, f10, f11, f20, f21, f30, f31, f40, f41, f50, f51, f60, f61, f70, f71, fo0, fo1⟩ := idx_facts t
  show V c (Pipeline.arrRef spec0 1) (((cfg0.win 1).blk t).view.emb (ix2 q k)) = _
  refine congrArg (V c (Pipeline.arrRef spec0 1)) ?_
  funext a; apply Fin.ext
  match a with
  | ⟨0, _⟩ => show win0_1.index t (0 : Fin 2) * 512 + 1 * q.val = j.val; omega
  | ⟨1, _⟩ => show win0_1.index t (1 : Fin 2) * 4096 + 1 * k.val = k.val; omega

theorem blk_w2 (c : Dev nD) (t : Fin cfg0.N) (q : Fin 512) (k : Fin 4096) (j : Fin 4096) (hj : j.val = t.val * 512 + q.val) :
    iblk0 V c 2 t (ix2 q k) = V c (Pipeline.arrRef spec0 2) (ix2 j k) := by
  obtain ⟨f00, f01, f10, f11, f20, f21, f30, f31, f40, f41, f50, f51, f60, f61, f70, f71, fo0, fo1⟩ := idx_facts t
  show V c (Pipeline.arrRef spec0 2) (((cfg0.win 2).blk t).view.emb (ix2 q k)) = _
  refine congrArg (V c (Pipeline.arrRef spec0 2)) ?_
  funext a; apply Fin.ext
  match a with
  | ⟨0, _⟩ => show win0_2.index t (0 : Fin 2) * 512 + 1 * q.val = j.val; omega
  | ⟨1, _⟩ => show win0_2.index t (1 : Fin 2) * 4096 + 1 * k.val = k.val; omega

/-- A bias window stages columns `512 t …` of its row. -/
theorem blk_b3 (c : Dev nD) (t : Fin cfg0.N) (q : Fin 512) (j : Fin 4096) (hj : j.val = t.val * 512 + q.val) :
    iblk0 V c 3 t (ix2 0 q) = V c (Pipeline.arrRef spec0 3) (ix2 0 j) := by
  obtain ⟨f00, f01, f10, f11, f20, f21, f30, f31, f40, f41, f50, f51, f60, f61, f70, f71, fo0, fo1⟩ := idx_facts t
  show V c (Pipeline.arrRef spec0 3) (((cfg0.win 3).blk t).view.emb (ix2 0 q)) = _
  refine congrArg (V c (Pipeline.arrRef spec0 3)) ?_
  funext a; apply Fin.ext
  match a with
  | ⟨0, _⟩ => show win0_3.index t (0 : Fin 2) * 1 + 1 * 0 = 0; omega
  | ⟨1, _⟩ => show win0_3.index t (1 : Fin 2) * 512 + 1 * q.val = j.val; omega

theorem blk_b4 (c : Dev nD) (t : Fin cfg0.N) (q : Fin 512) (j : Fin 4096) (hj : j.val = t.val * 512 + q.val) :
    iblk0 V c 4 t (ix2 0 q) = V c (Pipeline.arrRef spec0 4) (ix2 0 j) := by
  obtain ⟨f00, f01, f10, f11, f20, f21, f30, f31, f40, f41, f50, f51, f60, f61, f70, f71, fo0, fo1⟩ := idx_facts t
  show V c (Pipeline.arrRef spec0 4) (((cfg0.win 4).blk t).view.emb (ix2 0 q)) = _
  refine congrArg (V c (Pipeline.arrRef spec0 4)) ?_
  funext a; apply Fin.ext
  match a with
  | ⟨0, _⟩ => show win0_4.index t (0 : Fin 2) * 1 + 1 * 0 = 0; omega
  | ⟨1, _⟩ => show win0_4.index t (1 : Fin 2) * 512 + 1 * q.val = j.val; omega

/-- The slice of the staged state row the body loads is columns `512 t …` of the state row. -/
theorem blk_xs (c : Dev nD) (t : Fin cfg0.N) (q : Fin 512) (j : Fin 4096) (hj : j.val = t.val * 512 + q.val) :
    xslice (grid0.coords t) (iblk0 V c 0 t) (ix2 0 q) = V c (Pipeline.arrRef spec0 0) (ix2 0 j) := by
  obtain ⟨f00, f01, f10, f11, f20, f21, f30, f31, f40, f41, f50, f51, f60, f61, f70, f71, fo0, fo1⟩ := idx_facts t
  show iblk0 V c 0 t ((Rect.unit (s := S1x4096) (k0_off1 (grid0.coords t)) S1x512.size (k0_off1_inb (grid0.coords t))).idx (ix2 0 q)) = _
  rw [blk_x]
  refine congrArg (V c (Pipeline.arrRef spec0 0)) ?_
  funext a; apply Fin.ext
  match a with
  | ⟨0, _⟩ => show k0_off1 (grid0.coords t) (0 : Fin 2) + 1 * 0 = 0; omega
  | ⟨1, _⟩ => show k0_off1 (grid0.coords t) (1 : Fin 2) + 1 * q.val = j.val; omega

/-! ## What each point writes back, the cover, and the three rows after the last point -/

theorem flushed5 (c : Dev nD) (t : Fin cfg0.N) :
    (dat0 V c).flushed 5 t = ((cfg0.win 5).blk t).view.read (Elt Ideal) (gateRow (V c (Pipeline.arrRef spec0 0)) (V c (Pipeline.arrRef spec0 1)) (V c (Pipeline.arrRef spec0 3))) := by
  obtain ⟨f00, f01, f10, f11, f20, f21, f30, f31, f40, f41, f50, f51, f60, f61, f70, f71, fo0, fo1⟩ := idx_facts t
  show (cfg0.win 5).cut (grid0.coords t) ((dat0 V c).after 5 t) = _
  rw [after0_5]
  unfold outsAt0
  dsimp only
  rw [out5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t)]
  funext y
  show k0_pay2 (iblk0 V c 0 t) (iblk0 V c 1 t) (iblk0 V c 3 t) y = gateRow (V c (Pipeline.arrRef spec0 0)) (V c (Pipeline.arrRef spec0 1)) (V c (Pipeline.arrRef spec0 3)) (((cfg0.win 5).blk t).view.emb y)
  exact gate_point (k0_pay2 (iblk0 V c 0 t) (iblk0 V c 1 t) (iblk0 V c 3 t)) (iblk0 V c 0 t) (iblk0 V c 1 t) (iblk0 V c 3 t)
    (pay2_at (iblk0 V c 0 t) (iblk0 V c 1 t) (iblk0 V c 3 t)) (V c (Pipeline.arrRef spec0 0)) (V c (Pipeline.arrRef spec0 1)) (V c (Pipeline.arrRef spec0 3)) t.val y (((cfg0.win 5).blk t).view.emb y)
    (by show win0_5.index t (1 : Fin 2) * 512 + 1 * (y 1).val = t.val * 512 + (y 1).val; omega)
    (blk_x V c t) (blk_w1 V c t) (blk_b3 V c t)

theorem flushed6 (c : Dev nD) (t : Fin cfg0.N) :
    (dat0 V c).flushed 6 t = ((cfg0.win 6).blk t).view.read (Elt Ideal) (gateRow (V c (Pipeline.arrRef spec0 0)) (V c (Pipeline.arrRef spec0 2)) (V c (Pipeline.arrRef spec0 4))) := by
  obtain ⟨f00, f01, f10, f11, f20, f21, f30, f31, f40, f41, f50, f51, f60, f61, f70, f71, fo0, fo1⟩ := idx_facts t
  show (cfg0.win 6).cut (grid0.coords t) ((dat0 V c).after 6 t) = _
  rw [after0_6]
  unfold outsAt0
  dsimp only
  rw [out6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t)]
  funext y
  show k0_pay3 (iblk0 V c 0 t) (iblk0 V c 2 t) (iblk0 V c 4 t) y = gateRow (V c (Pipeline.arrRef spec0 0)) (V c (Pipeline.arrRef spec0 2)) (V c (Pipeline.arrRef spec0 4)) (((cfg0.win 6).blk t).view.emb y)
  exact gate_point (k0_pay3 (iblk0 V c 0 t) (iblk0 V c 2 t) (iblk0 V c 4 t)) (iblk0 V c 0 t) (iblk0 V c 2 t) (iblk0 V c 4 t)
    (pay3_at (iblk0 V c 0 t) (iblk0 V c 2 t) (iblk0 V c 4 t)) (V c (Pipeline.arrRef spec0 0)) (V c (Pipeline.arrRef spec0 2)) (V c (Pipeline.arrRef spec0 4)) t.val y (((cfg0.win 6).blk t).view.emb y)
    (by show win0_6.index t (1 : Fin 2) * 512 + 1 * (y 1).val = t.val * 512 + (y 1).val; omega)
    (blk_x V c t) (blk_w2 V c t) (blk_b4 V c t)

theorem flushed7 (c : Dev nD) (t : Fin cfg0.N) :
    (dat0 V c).flushed 7 t = ((cfg0.win 7).blk t).view.read (Elt Ideal) (resetRow (V c (Pipeline.arrRef spec0 0)) (V c (Pipeline.arrRef spec0 2)) (V c (Pipeline.arrRef spec0 4))) := by
  obtain ⟨f00, f01, f10, f11, f20, f21, f30, f31, f40, f41, f50, f51, f60, f61, f70, f71, fo0, fo1⟩ := idx_facts t
  show (cfg0.win 7).cut (grid0.coords t) ((dat0 V c).after 7 t) = _
  rw [after0_7]
  unfold outsAt0
  dsimp only
  rw [out7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t)]
  funext y
  show k0_pay4 (iblk0 V c 0 t) (iblk0 V c 2 t) (iblk0 V c 4 t) (xslice (grid0.coords t) (iblk0 V c 0 t)) y
    = resetRow (V c (Pipeline.arrRef spec0 0)) (V c (Pipeline.arrRef spec0 2)) (V c (Pipeline.arrRef spec0 4)) (((cfg0.win 7).blk t).view.emb y)
  exact reset_point (iblk0 V c 0 t) (iblk0 V c 2 t) (iblk0 V c 4 t) (xslice (grid0.coords t) (iblk0 V c 0 t))
    (V c (Pipeline.arrRef spec0 0)) (V c (Pipeline.arrRef spec0 2)) (V c (Pipeline.arrRef spec0 4)) t.val y (((cfg0.win 7).blk t).view.emb y)
    (by show win0_7.index t (1 : Fin 2) * 512 + 1 * (y 1).val = t.val * 512 + (y 1).val; omega)
    (blk_x V c t) (blk_w2 V c t) (blk_b4 V c t) (blk_xs V c t)

theorem mem_blk5 (t : Fin cfg0.N) (i : S1x4096.Idx) :
    i ∈ ((cfg0.win 5).blk t).view.set ↔ ∀ a : Fin 2, win0_5.index t a * S1x512.size a ≤ (i a).val ∧ (i a).val < win0_5.index t a * S1x512.size a + S1x512.size a := by
  show i ∈ ((View.whole main_v19_0).slice (win0_5.rect t)).set ↔ _
  rw [View.set_slice_whole, Rect.mem_set_unit]
  exact Iff.rfl

/-- Column `j` lies in the block of point `j / 512`. -/
theorem cover5 (i : S1x4096.Idx) : ∃ t : Fin cfg0.N, (cfg0.win 5).flush t = true ∧ i ∈ ((cfg0.win 5).blk t).view.set := by
  have h0 : (i 0).val < 1 := (i 0).isLt
  have h1 : (i 1).val < 4096 := (i 1).isLt
  have hN : cfg0.N = 8 := N_0
  have hlt : (i 1).val / 512 < cfg0.N := by rw [hN]; omega
  refine ⟨⟨(i 1).val / 512, hlt⟩, flush0_5 _, ?_⟩
  rw [mem_blk5]
  obtain ⟨f00, f01, f10, f11, f20, f21, f30, f31, f40, f41, f50, f51, f60, f61, f70, f71, fo0, fo1⟩ := idx_facts ⟨(i 1).val / 512, hlt⟩
  intro a
  match a with
  | ⟨0, _⟩ =>
    show win0_5.index ⟨(i 1).val / 512, hlt⟩ (0 : Fin 2) * 1 ≤ (i 0).val ∧ (i 0).val < win0_5.index ⟨(i 1).val / 512, hlt⟩ (0 : Fin 2) * 1 + 1
    rw [f50]; omega
  | ⟨1, _⟩ =>
    show win0_5.index ⟨(i 1).val / 512, hlt⟩ (1 : Fin 2) * 512 ≤ (i 1).val ∧ (i 1).val < win0_5.index ⟨(i 1).val / 512, hlt⟩ (1 : Fin 2) * 512 + 512
    rw [f51]; show (i 1).val / 512 * 512 ≤ (i 1).val ∧ (i 1).val < (i 1).val / 512 * 512 + 512; omega

theorem mem_blk6 (t : Fin cfg0.N) (i : S1x4096.Idx) :
    i ∈ ((cfg0.win 6).blk t).view.set ↔ ∀ a : Fin 2, win0_6.index t a * S1x512.size a ≤ (i a).val ∧ (i a).val < win0_6.index t a * S1x512.size a + S1x512.size a := by
  show i ∈ ((View.whole main_v19_1).slice (win0_6.rect t)).set ↔ _
  rw [View.set_slice_whole, Rect.mem_set_unit]
  exact Iff.rfl

/-- Column `j` lies in the block of point `j / 512`. -/
theorem cover6 (i : S1x4096.Idx) : ∃ t : Fin cfg0.N, (cfg0.win 6).flush t = true ∧ i ∈ ((cfg0.win 6).blk t).view.set := by
  have h0 : (i 0).val < 1 := (i 0).isLt
  have h1 : (i 1).val < 4096 := (i 1).isLt
  have hN : cfg0.N = 8 := N_0
  have hlt : (i 1).val / 512 < cfg0.N := by rw [hN]; omega
  refine ⟨⟨(i 1).val / 512, hlt⟩, flush0_6 _, ?_⟩
  rw [mem_blk6]
  obtain ⟨f00, f01, f10, f11, f20, f21, f30, f31, f40, f41, f50, f51, f60, f61, f70, f71, fo0, fo1⟩ := idx_facts ⟨(i 1).val / 512, hlt⟩
  intro a
  match a with
  | ⟨0, _⟩ =>
    show win0_6.index ⟨(i 1).val / 512, hlt⟩ (0 : Fin 2) * 1 ≤ (i 0).val ∧ (i 0).val < win0_6.index ⟨(i 1).val / 512, hlt⟩ (0 : Fin 2) * 1 + 1
    rw [f60]; omega
  | ⟨1, _⟩ =>
    show win0_6.index ⟨(i 1).val / 512, hlt⟩ (1 : Fin 2) * 512 ≤ (i 1).val ∧ (i 1).val < win0_6.index ⟨(i 1).val / 512, hlt⟩ (1 : Fin 2) * 512 + 512
    rw [f61]; show (i 1).val / 512 * 512 ≤ (i 1).val ∧ (i 1).val < (i 1).val / 512 * 512 + 512; omega

theorem mem_blk7 (t : Fin cfg0.N) (i : S1x4096.Idx) :
    i ∈ ((cfg0.win 7).blk t).view.set ↔ ∀ a : Fin 2, win0_7.index t a * S1x512.size a ≤ (i a).val ∧ (i a).val < win0_7.index t a * S1x512.size a + S1x512.size a := by
  show i ∈ ((View.whole main_v19_2).slice (win0_7.rect t)).set ↔ _
  rw [View.set_slice_whole, Rect.mem_set_unit]
  exact Iff.rfl

/-- Column `j` lies in the block of point `j / 512`. -/
theorem cover7 (i : S1x4096.Idx) : ∃ t : Fin cfg0.N, (cfg0.win 7).flush t = true ∧ i ∈ ((cfg0.win 7).blk t).view.set := by
  have h0 : (i 0).val < 1 := (i 0).isLt
  have h1 : (i 1).val < 4096 := (i 1).isLt
  have hN : cfg0.N = 8 := N_0
  have hlt : (i 1).val / 512 < cfg0.N := by rw [hN]; omega
  refine ⟨⟨(i 1).val / 512, hlt⟩, flush0_7 _, ?_⟩
  rw [mem_blk7]
  obtain ⟨f00, f01, f10, f11, f20, f21, f30, f31, f40, f41, f50, f51, f60, f61, f70, f71, fo0, fo1⟩ := idx_facts ⟨(i 1).val / 512, hlt⟩
  intro a
  match a with
  | ⟨0, _⟩ =>
    show win0_7.index ⟨(i 1).val / 512, hlt⟩ (0 : Fin 2) * 1 ≤ (i 0).val ∧ (i 0).val < win0_7.index ⟨(i 1).val / 512, hlt⟩ (0 : Fin 2) * 1 + 1
    rw [f70]; omega
  | ⟨1, _⟩ =>
    show win0_7.index ⟨(i 1).val / 512, hlt⟩ (1 : Fin 2) * 512 ≤ (i 1).val ∧ (i 1).val < win0_7.index ⟨(i 1).val / 512, hlt⟩ (1 : Fin 2) * 512 + 512
    rw [f71]; show (i 1).val / 512 * 512 ≤ (i 1).val ∧ (i 1).val < (i 1).val / 512 * 512 + 512; omega

/-- After the last point the update gate's row is the gate row of the arrays the kernel was entered with. -/
theorem final5 (c : Dev nD) : (dat0 V c).arrAt 5 cfg0.N = gateRow (V c (Pipeline.arrRef spec0 0)) (V c (Pipeline.arrRef spec0 1)) (V c (Pipeline.arrRef spec0 3)) :=
  (dat0 V c).arrAt_eq_of_cover 5 _ (fun t _ => flushed5 V c t) cover5

/-- The reset gate's row. -/
theorem final6 (c : Dev nD) : (dat0 V c).arrAt 6 cfg0.N = gateRow (V c (Pipeline.arrRef spec0 0)) (V c (Pipeline.arrRef spec0 2)) (V c (Pipeline.arrRef spec0 4)) :=
  (dat0 V c).arrAt_eq_of_cover 6 _ (fun t _ => flushed6 V c t) cover6

/-- The reset state's row. -/
theorem final7 (c : Dev nD) : (dat0 V c).arrAt 7 cfg0.N = resetRow (V c (Pipeline.arrRef spec0 0)) (V c (Pipeline.arrRef spec0 2)) (V c (Pipeline.arrRef spec0 4)) :=
  (dat0 V c).arrAt_eq_of_cover 7 _ (fun t _ => flushed7 V c t) cover7

end finals

end Cert.KernelIdeal.Gates

end
-- ==== Proof.Region1.lean ====
/-
  THE CANDIDATE KERNEL (the second of the two kernels): what its result row holds after all eight grid points.

  The reset state row `rx`, the update gate's row `z` and the state row `x`, each `[1, 4096]`, are read whole at every
  point; point `t` reads rows `512 t … 512 t + 511` of the weight matrix and columns `512 t … 512 t + 511` of the bias
  row, of `z` and of `x`, and writes the same columns of the result:
      Δ(0, j) = (z(0, j) · x(0, j) + (1 − z(0, j)) · tanh(∑ k, rx(0, k) · Am(j, k) + bm(0, j))) − x(0, j).
  The eight column blocks tile `[1, 4096]`, so afterwards the row is `deltaRow` of the arrays the kernel was entered with.
-/
import proofs.«154067_j39565238731289_2_alg».proof.Proof.Gen.KernelIdeal.Frame
import proofs.«154067_j39565238731289_2_alg».proof.Proof.LibRowsDot
import proofs.«154067_j39565238731289_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Candidate

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen Cert.GatedUpdate

theorem hz : (![0, 0] : Fin 2 → Nat) = fun _ => 0 := funext fun a => by fin_cases a <;> rfl

/-! ## What the body leaves in the output's buffer: its one store's value -/

section pieces
variable {F : FTy → Type} [FloatOps F]

/-- The slice of a whole row the body loads at grid coordinates `i`. -/
abbrev rslice (i : grid1.Coords) (x : Vec F S1x4096 .f32) : Vec F S1x512 .f32 :=
  View.ld x (Rect.unit (s := S1x4096) (k1_off1 i) S1x512.size (k1_off1_inb i))

theorem out5_eq (c : Dev nD) (i : grid1.Coords) (a1 : Memref sig .tc .vmem S1x4096 .f32) (h1 : a1.IsWhole) (a2 : Memref sig .tc .vmem S512x4096 .f32) (h2 : a2.IsWhole) (a3 : Memref sig .tc .vmem S1x512 .f32) (h3 : a3.IsWhole) (a4 : Memref sig .tc .vmem S1x4096 .f32) (h4 : a4.IsWhole) (a5 : Memref sig .tc .vmem S1x4096 .f32) (h5 : a5.IsWhole) (a6 : Memref sig .tc .vmem S1x512 .f32) (h6 : a6.IsWhole) (x0 : Vec F S1x4096 .f32) (x1 : Vec F S512x4096 .f32) (x2 : Vec F S1x512 .f32) (x3 : Vec F S1x4096 .f32) (x4 : Vec F S1x4096 .f32) : out1_A_5 c i a1 h1 a2 h2 a3 h3 a4 h4 a5 h5 a6 h6 x0 x1 x2 x3 x4 = k1_pay1 x0 x1 x2 (rslice i x3) (rslice i x4) := by
  unfold out1_A_5
  rw [View.read_writes_eq_canon _ _ _ (cover1_A_5 c i a1 h1 a2 h2 a3 h3 a4 h4 a5 h5 a6 h6 x0 x1 x2 x3 x4)]
  unfold kernelRun1_A
  dsimp only
  rw [View.canon_unit_zero hz]
  simp only [View.readAt_eq_ld, h1.read_unread, h2.read_unread, h3.read_unread, h4.read_unread, h5.read_unread,
    View.ld_unit_zero (S := S1x4096) hz, View.ld_unit_zero (S := S512x4096) hz, View.ld_unit_zero (S := S1x512) hz]

end pieces

/-! ## The stored value at an index, on extended reals -/

/-- The printed contraction record is the "right operand transposed" one. -/
theorem dot_eq : dot_S1x4096_S512x4096_S1x512_1_1_0_0_n_n = DotDims.transposedRhs 1 4096 512 := rfl

theorem pay1_at (x0 : Vec Ideal S1x4096 .f32) (x1 : Vec Ideal S512x4096 .f32) (x2 : Vec Ideal S1x512 .f32)
    (zs xs : Vec Ideal S1x512 .f32) (q : Fin 512) :
    k1_pay1 x0 x1 x2 zs xs (ix2 0 q)
      = mix one (zs (ix2 0 q)) (xs (ix2 0 q)) ((∑ k : Fin 4096, x0 (ix2 0 k) * x1 (ix2 q k)) + x2 (ix2 0 q)) := by
  unfold k1_pay1
  simp only [shapeCast_self]
  rw [dot_eq]
  exact congrArg (fun v : EReal => mix one (zs (ix2 0 q)) (xs (ix2 0 q)) (v + x2 (ix2 0 q)))
    (Cert.RowsDot.kdotT_apply (R := 1) (K := 4096) (N := 512) none (truncf .bf16 x0 bitsLt_bf16_f32)
      (truncf .bf16 x1 bitsLt_bf16_f32) 0 q)

/-! ## The printed index maps, decided once over the eight grid points -/

theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = t.val
    ∧ k1_off1 (grid1.coords t) (0 : Fin 2) = 0 ∧ k1_off1 (grid1.coords t) (1 : Fin 2) = t.val * 512 :=
  (by decide +kernel : ∀ t : Fin grid1.N, _)

/-! ## One point's stored block is a block of the whole row -/

theorem delta_point (x0 : Vec Ideal S1x4096 .f32) (x1 : Vec Ideal S512x4096 .f32) (x2 : Vec Ideal S1x512 .f32)
    (zs xs : Vec Ideal S1x512 .f32) (RX : RowArr) (Am : MatArr) (bm Z X : RowArr) (T : ℕ) (y : S1x512.Idx) (i : S1x4096.Idx)
    (hi : (i 1).val = T * 512 + (y 1).val)
    (e0 : ∀ z : S1x4096.Idx, x0 z = RX z)
    (e1 : ∀ (q : Fin 512) (k : Fin 4096) (j : Fin 4096), j.val = T * 512 + q.val → x1 (ix2 q k) = Am (ix2 j k))
    (e2 : ∀ (q : Fin 512) (j : Fin 4096), j.val = T * 512 + q.val → x2 (ix2 0 q) = bm (ix2 0 j))
    (ez : ∀ (q : Fin 512) (j : Fin 4096), j.val = T * 512 + q.val → zs (ix2 0 q) = Z (ix2 0 j))
    (ex : ∀ (q : Fin 512) (j : Fin 4096), j.val = T * 512 + q.val → xs (ix2 0 q) = X (ix2 0 j)) :
    k1_pay1 x0 x1 x2 zs xs y = deltaRow one RX Am bm Z X i := by
  obtain ⟨p, q, rfl⟩ : ∃ (p : Fin 1) (q : Fin 512), y = ix2 p q := ⟨y 0, y 1, eq_ix2 y⟩
  obtain rfl : p = 0 := Subsingleton.elim _ _
  obtain ⟨p', j, rfl⟩ : ∃ (p' : Fin 1) (j : Fin 4096), i = ix2 p' j := ⟨i 0, i 1, eq_ix2 i⟩
  obtain rfl : p' = 0 := Subsingleton.elim _ _
  have hj : j.val = T * 512 + q.val := hi
  rw [pay1_at, e2 q j hj, ez q j hj, ex q j hj]
  show _ = mix one (Z (ix2 0 j)) (X (ix2 0 j)) ((∑ k : Fin 4096, RX (ix2 0 k) * Am (ix2 j k)) + bm (ix2 0 j))
  refine congrArg (fun v : EReal => mix one (Z (ix2 0 j)) (X (ix2 0 j)) (v + bm (ix2 0 j))) ?_
  exact Finset.sum_congr rfl fun k _ => by rw [e0 (ix2 0 k), e1 q k j hj]

/-! ## The blocks the windows stage, as parts of the arrays the kernel is entered with -/

section finals
variable (V : (c : Dev nD) → (b : Ref sig .tc) → Buf (Elt Ideal) ((c : Thread nD τ).loc b))

/-- The reset state row's window stages the whole row at every point. -/
theorem blk_rx (c : Dev nD) (t : Fin cfg1.N) (z : S1x4096.Idx) : iblk1 V c 0 t z = V c (Pipeline.arrRef spec1 0) z := by
  obtain ⟨f00, f01, f10, f11, f20, f21, f30, f31, f40, f41, f50, f51, fo0, fo1⟩ := idx_facts t
  show V c (Pipeline.arrRef spec1 0) (((cfg1.win 0).blk t).view.emb z) = _
  refine congrArg (V c (Pipeline.arrRef spec1 0)) ?_
  funext a; apply Fin.ext
  match a with
  | ⟨0, _⟩ => show win1_0.index t (0 : Fin 2) * 1 + 1 * (z 0).val = (z 0).val; omega
  | ⟨1, _⟩ => show win1_0.index t (1 : Fin 2) * 4096 + 1 * (z 1).val = (z 1).val; omega

/-- So does the update gate row's window, -/
theorem blk_z (c : Dev nD) (t : Fin cfg1.N) (z : S1x4096.Idx) : iblk1 V c 3 t z = V c (Pipeline.arrRef spec1 3) z := by
  obtain ⟨f00, f01, f10, f11, f20, f21, f30, f31, f40, f41, f50, f51, fo0, fo1⟩ := idx_facts t
  show V c (Pipeline.arrRef spec1 3) (((cfg1.win 3).blk t).view.emb z) = _
  refine congrArg (V c (Pipeline.arrRef spec1 3)) ?_
  funext a; apply Fin.ext
  match a with
  | ⟨0, _⟩ => show win1_3.index t (0 : Fin 2) * 1 + 1 * (z 0).val = (z 0).val; omega
  | ⟨1, _⟩ => show win1_3.index t (1 : Fin 2) * 4096 + 1 * (z 1).val = (z 1).val; omega

/-- and the state row's. -/
theorem blk_x (c : Dev nD) (t : Fin cfg1.N) (z : S1x4096.Idx) : iblk1 V c 4 t z = V c (Pipeline.arrRef spec1 4) z := by
  obtain ⟨f00, f01, f10, f11, f20, f21, f30, f31, f40, f41, f50, f51, fo0, fo1⟩ := idx_facts t
  show V c (Pipeline.arrRef spec1 4) (((cfg1.win 4).blk t).view.emb z) = _
  refine congrArg (V c (Pipeline.arrRef spec1 4)) ?_
  funext a; apply Fin.ext
  match a with
  | ⟨0, _⟩ => show win1_4.index t (0 : Fin 2) * 1 + 1 * (z 0).val = (z 0).val; omega
  | ⟨1, _⟩ => show win1_4.index t (1 : Fin 2) * 4096 + 1 * (z 1).val = (z 1).val; omega

/-- The weight window stages rows `512 t …` of the matrix. -/
theorem blk_am (c : Dev nD) (t : Fin cfg1.N) (q : Fin 512) (k : Fin 4096) (j : Fin 4096) (hj : j.val = t.val * 512 + q.val) :
    iblk1 V c 1 t (ix2 q k) = V c (Pipeline.arrRef spec1 1) (ix2 j k) := by
  obtain ⟨f00, f01, f10, f11, f20, f21, f30, f31, f40, f41, f50, f51, fo0, fo1⟩ := idx_facts t
  show V c (Pipeline.arrRef spec1 1) (((cfg1.win 1).blk t).view.emb (ix2 q k)) = _
  refine congrArg (V c (Pipeline.arrRef spec1 1)) ?_
  funext a; apply Fin.ext
  match a with
  | ⟨0, _⟩ => show win1_1.index t (0 : Fin 2) * 512 + 1 * q.val = j.val; omega
  | ⟨1, _⟩ => show win1_1.index t (1 : Fin 2) * 4096 + 1 * k.val = k.val; omega

/-- The bias window stages columns `512 t …` of its row. -/
theorem blk_bm (c : Dev nD) (t : Fin cfg1.N) (q : Fin 512) (j : Fin 4096) (hj : j.val = t.val * 512 + q.val) :
    iblk1 V c 2 t (ix2 0 q) = V c (Pipeline.arrRef spec1 2) (ix2 0 j) := by
  obtain ⟨f00, f01, f10, f11, f20, f21, f30, f31, f40, f41, f50, f51, fo0, fo1⟩ := idx_facts t
  show V c (Pipeline.arrRef spec1 2) (((cfg1.win 2).blk t).view.emb (ix2 0 q)) = _
  refine congrArg (V c (Pipeline.arrRef spec1 2)) ?_
  funext a; apply Fin.ext
  match a with
  | ⟨0, _⟩ => show win1_2.index t (0 : Fin 2) * 1 + 1 * 0 = 0; omega
  | ⟨1, _⟩ => show win1_2.index t (1 : Fin 2) * 512 + 1 * q.val = j.val; omega

/-- The slice of the staged gate row the body loads is columns `512 t …` of that row, -/
theorem blk_zs (c : Dev nD) (t : Fin cfg1.N) (q : Fin 512) (j : Fin 4096) (hj : j.val = t.val * 512 + q.val) :
    rslice (grid1.coords t) (iblk1 V c 3 t) (ix2 0 q) = V c (Pipeline.arrRef spec1 3) (ix2 0 j) := by
  obtain ⟨f00, f01, f10, f11, f20, f21, f30, f31, f40, f41, f50, f51, fo0, fo1⟩ := idx_facts t
  show iblk1 V c 3 t ((Rect.unit (s := S1x4096) (k1_off1 (grid1.coords t)) S1x512.size (k1_off1_inb (grid1.coords t))).idx (ix2 0 q)) = _
  rw [blk_z]
  refine congrArg (V c (Pipeline.arrRef spec1 3)) ?_
  funext a; apply Fin.ext
  match a with
  | ⟨0, _⟩ => show k1_off1 (grid1.coords t) (0 : Fin 2) + 1 * 0 = 0; omega
  | ⟨1, _⟩ => show k1_off1 (grid1.coords t) (1 : Fin 2) + 1 * q.val = j.val; omega

/-- and likewise for the state row. -/
theorem blk_xs (c : Dev nD) (t : Fin cfg1.N) (q : Fin 512) (j : Fin 4096) (hj : j.val = t.val * 512 + q.val) :
    rslice (grid1.coords t) (iblk1 V c 4 t) (ix2 0 q) = V c (Pipeline.arrRef spec1 4) (ix2 0 j) := by
  obtain ⟨f00, f01, f10, f11, f20, f21, f30, f31, f40, f41, f50, f51, fo0, fo1⟩ := idx_facts t
  show iblk1 V c 4 t ((Rect.unit (s := S1x4096) (k1_off1 (grid1.coords t)) S1x512.size (k1_off1_inb (grid1.coords t))).idx (ix2 0 q)) = _
  rw [blk_x]
  refine congrArg (V c (Pipeline.arrRef spec1 4)) ?_
  funext a; apply Fin.ext
  match a with
  | ⟨0, _⟩ => show k1_off1 (grid1.coords t) (0 : Fin 2) + 1 * 0 = 0; omega
  | ⟨1, _⟩ => show k1_off1 (grid1.coords t) (1 : Fin 2) + 1 * q.val = j.val; omega

/-! ## What each point writes back, the cover, and the row after the last point -/

theorem flushed5 (c : Dev nD) (t : Fin cfg1.N) :
    (dat1 V c).flushed 5 t = ((cfg1.win 5).blk t).view.read (Elt Ideal)
      (deltaRow one (V c (Pipeline.arrRef spec1 0)) (V c (Pipeline.arrRef spec1 1)) (V c (Pipeline.arrRef spec1 2)) (V c (Pipeline.arrRef spec1 3)) (V c (Pipeline.arrRef spec1 4))) := by
  obtain ⟨f00, f01, f10, f11, f20, f21, f30, f31, f40, f41, f50, f51, fo0, fo1⟩ := idx_facts t
  show (cfg1.win 5).cut (grid1.coords t) ((dat1 V c).after 5 t) = _
  rw [after1_5]
  unfold outsAt1
  rw [out5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)]
  funext y
  show k1_pay1 (iblk1 V c 0 t) (iblk1 V c 1 t) (iblk1 V c 2 t) (rslice (grid1.coords t) (iblk1 V c 3 t)) (rslice (grid1.coords t) (iblk1 V c 4 t)) y
    = deltaRow one (V c (Pipeline.arrRef spec1 0)) (V c (Pipeline.arrRef spec1 1)) (V c (Pipeline.arrRef spec1 2)) (V c (Pipeline.arrRef spec1 3)) (V c (Pipeline.arrRef spec1 4)) (((cfg1.win 5).blk t).view.emb y)
  exact delta_point (iblk1 V c 0 t) (iblk1 V c 1 t) (iblk1 V c 2 t) (rslice (grid1.coords t) (iblk1 V c 3 t)) (rslice (grid1.coords t) (iblk1 V c 4 t))
    (V c (Pipeline.arrRef spec1 0)) (V c (Pipeline.arrRef spec1 1)) (V c (Pipeline.arrRef spec1 2)) (V c (Pipeline.arrRef spec1 3)) (V c (Pipeline.arrRef spec1 4)) t.val y (((cfg1.win 5).blk t).view.emb y)
    (by show win1_5.index t (1 : Fin 2) * 512 + 1 * (y 1).val = t.val * 512 + (y 1).val; omega)
    (blk_rx V c t) (blk_am V c t) (blk_bm V c t) (blk_zs V c t) (blk_xs V c t)

theorem mem_blk5 (t : Fin cfg1.N) (i : S1x4096.Idx) :
    i ∈ ((cfg1.win 5).blk t).view.set ↔ ∀ a : Fin 2, win1_5.index t a * S1x512.size a ≤ (i a).val ∧ (i a).val < win1_5.index t a * S1x512.size a + S1x512.size a := by
  show i ∈ ((View.whole main_v20).slice (win1_5.rect t)).set ↔ _
  rw [View.set_slice_whole, Rect.mem_set_unit]
  exact Iff.rfl

/-- Column `j` lies in the block of point `j / 512`. -/
theorem cover5 (i : S1x4096.Idx) : ∃ t : Fin cfg1.N, (cfg1.win 5).flush t = true ∧ i ∈ ((cfg1.win 5).blk t).view.set := by
  have h0 : (i 0).val < 1 := (i 0).isLt
  have h1 : (i 1).val < 4096 := (i 1).isLt
  have hN : cfg1.N = 8 := N_1
  have hlt : (i 1).val / 512 < cfg1.N := by rw [hN]; omega
  refine ⟨⟨(i 1).val / 512, hlt⟩, flush1_5 _, ?_⟩
  rw [mem_blk5]
  obtain ⟨f00, f01, f10, f11, f20, f21, f30, f31, f40, f41, f50, f51, fo0, fo1⟩ := idx_facts ⟨(i 1).val / 512, hlt⟩
  intro a
  match a with
  | ⟨0, _⟩ =>
    show win1_5.index ⟨(i 1).val / 512, hlt⟩ (0 : Fin 2) * 1 ≤ (i 0).val ∧ (i 0).val < win1_5.index ⟨(i 1).val / 512, hlt⟩ (0 : Fin 2) * 1 + 1
    rw [f50]; omega
  | ⟨1, _⟩ =>
    show win1_5.index ⟨(i 1).val / 512, hlt⟩ (1 : Fin 2) * 512 ≤ (i 1).val ∧ (i 1).val < win1_5.index ⟨(i 1).val / 512, hlt⟩ (1 : Fin 2) * 512 + 512
    rw [f51]; show (i 1).val / 512 * 512 ≤ (i 1).val ∧ (i 1).val < (i 1).val / 512 * 512 + 512; omega

/-- After the last point the result row is the update row of the arrays the kernel was entered with. -/
theorem final5 (c : Dev nD) :
    (dat1 V c).arrAt 5 cfg1.N = deltaRow one (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed5 V c t) cover5

end finals

end Cert.KernelIdeal.Candidate

end
-- ==== Proof.Glue.lean ====
/-
  THE HOST OPERATIONS AROUND THE TWO KERNELS, read back as functions of the argument arrays.

  Before the kernels: the state table `[32, 2048]` is the state argument with its leading unit axis dropped; the two
  team indices are made non-negative (a negative index counts from the end) and select two rows of the table, which
  are laid side by side as the state row `x` `[1, 4096]`; each of the three biases is a small matrix–vector product
  plus (or minus) a column, laid out as a row.  After the kernels: the update row is cut back into two rows and added
  into the table at the same two indices, and the unit axis is put back.
-/
import proofs.«154067_j39565238731289_2_alg».proof.Proof.Gen.KernelIdeal.Frame
import Idealize.ShloMosaic.Lib.StableHlo.Run
import Idealize.ShloMosaic.Lib.Tactic

set_option maxRecDepth 16384

noncomputable section

namespace Cert.KernelIdeal.Glue

open Idealize.ShloMosaic Idealize.ShloMosaic.TcCoe Idealize.SL.Sem Idealize.ShloMosaic.Tactic Idealize.ShloMosaic.StableHlo
open Cert.KernelIdeal Cert.KernelIdeal.Gen

variable {F : FTy → Type} [FloatOps F]

/-- The team indices made non-negative, as a column of start indices. -/
def teamIdx (t : (⟨S2, .i32⟩ : BufTy).Contents (Elt F)) : (⟨S2x1, .i32⟩ : BufTy).Contents (Elt F) :=
  broadcastInDim S2x1 ![0] bcast_S2_S2x1_0
    (select (cmpi .slt t (broadcastInDim S2 ![] bcast_S_S2 (constantI S_ 32 0#32)))
      (addi t (broadcastInDim S2 ![] bcast_S_S2 (constantI S_ 32 32#32))) t)

/-- The state table: the state argument without its leading unit axis. -/
def table (s : (⟨S1x32x2048, .f32⟩ : BufTy).Contents (Elt F)) : (⟨S32x2048, .f32⟩ : BufTy).Contents (Elt F) :=
  shapeCast _ s shapeCasts_S1x32x2048_S32x2048

/-- The two selected rows of the table. -/
def teamRows (t : (⟨S2, .i32⟩ : BufTy).Contents (Elt F)) (s : (⟨S1x32x2048, .f32⟩ : BufTy).Contents (Elt F)) :
    (⟨S2x2048, .f32⟩ : BufTy).Contents (Elt F) :=
  Host.gather gather_S32x2048_S2x1_S2x2048_1_0_n_n_0_1_12048 (table s) (teamIdx t)

/-- The state row: the two selected rows side by side. -/
def stateRow (t : (⟨S2, .i32⟩ : BufTy).Contents (Elt F)) (s : (⟨S1x32x2048, .f32⟩ : BufTy).Contents (Elt F)) :
    (⟨S1x4096, .f32⟩ : BufTy).Contents (Elt F) :=
  shapeCast _ (teamRows t s) shapeCasts_S2x2048_S1x4096

/-- The input vector as a column. -/
def inputCol (u : (⟨S64, .f32⟩ : BufTy).Contents (Elt F)) : (⟨S64x1, .f32⟩ : BufTy).Contents (Elt F) :=
  shapeCast _ u shapeCasts_S64_S64x1

/-- A bias row `B·u + d`. -/
def biasAdd (B : (⟨S4096x64, .f32⟩ : BufTy).Contents (Elt F)) (u : (⟨S64, .f32⟩ : BufTy).Contents (Elt F))
    (d : (⟨S4096x1, .f32⟩ : BufTy).Contents (Elt F)) : (⟨S1x4096, .f32⟩ : BufTy).Contents (Elt F) :=
  shapeCast _ (addf (Host.dotGeneral dot_S4096x64_S64x1_S4096x1_1_0_0_1_n_n none B (inputCol u)) d) shapeCasts_S4096x1_S1x4096

/-- A bias row `B·u − d`. -/
def biasSub (B : (⟨S4096x64, .f32⟩ : BufTy).Contents (Elt F)) (u : (⟨S64, .f32⟩ : BufTy).Contents (Elt F))
    (d : (⟨S4096x1, .f32⟩ : BufTy).Contents (Elt F)) : (⟨S1x4096, .f32⟩ : BufTy).Contents (Elt F) :=
  shapeCast _ (subf (Host.dotGeneral dot_S4096x64_S64x1_S4096x1_1_0_0_1_n_n none B (inputCol u)) d) shapeCasts_S4096x1_S1x4096

/-- The update cut back into two rows. -/
def updateRows (dx : (⟨S1x4096, .f32⟩ : BufTy).Contents (Elt F)) : (⟨S2x2048, .f32⟩ : BufTy).Contents (Elt F) :=
  shapeCast _ dx shapeCasts_S1x4096_S2x2048

/-- The two update rows added into the table at the team indices, the unit axis put back. -/
def writeBack (tbl : (⟨S32x2048, .f32⟩ : BufTy).Contents (Elt F)) (t : (⟨S2, .i32⟩ : BufTy).Contents (Elt F))
    (upd : (⟨S2x2048, .f32⟩ : BufTy).Contents (Elt F)) : (⟨S1x32x2048, .f32⟩ : BufTy).Contents (Elt F) :=
  broadcastInDim S1x32x2048 ![1, 2] bcast_S32x2048_S1x32x2048_1_2
    (Host.scatterAdd scatter_S32x2048_S2x1_S2x2048_1_0_0_1 tbl (teamIdx t) upd)

variable (m : (ℓ : Loc nD τ sig) → Buf (Elt F) ℓ) (ρ : Dev nD → PrngReg)

/-! ## What the first kernel is entered with -/

theorem entry_x (c : Dev nD) :
    V1 m ρ c main_v8 = stateRow (m ((c : Thread nD τ).loc main_arg0)) (m ((c : Thread nD τ).loc main_arg2)) := by
  show StableHlo.after hostOps0 (W0 m ρ c) (Proc.devRef .tc main_v8) = _
  after_results; rfl

theorem entry_bz (c : Dev nD) :
    V1 m ρ c main_v12 = biasAdd (m ((c : Thread nD τ).loc main_arg3)) (m ((c : Thread nD τ).loc main_arg1)) (m ((c : Thread nD τ).loc main_arg9)) := by
  show StableHlo.after hostOps0 (W0 m ρ c) (Proc.devRef .tc main_v12) = _
  after_results; rfl

theorem entry_br (c : Dev nD) :
    V1 m ρ c main_v15 = biasSub (m ((c : Thread nD τ).loc main_arg4)) (m ((c : Thread nD τ).loc main_arg1)) (m ((c : Thread nD τ).loc main_arg10)) := by
  show StableHlo.after hostOps0 (W0 m ρ c) (Proc.devRef .tc main_v15) = _
  after_results; rfl

set_option maxHeartbeats 1000000 in
theorem entry_bm (c : Dev nD) :
    V1 m ρ c main_v18 = biasAdd (m ((c : Thread nD τ).loc main_arg5)) (m ((c : Thread nD τ).loc main_arg1)) (m ((c : Thread nD τ).loc main_arg11)) := by
  show StableHlo.after hostOps0 (W0 m ρ c) (Proc.devRef .tc main_v18) = _
  after_results
  unfold biasAdd inputCol
  rfl

theorem entry_table (c : Dev nD) : V1 m ρ c main_v0 = table (m ((c : Thread nD τ).loc main_arg2)) := by
  show StableHlo.after hostOps0 (W0 m ρ c) (Proc.devRef .tc main_v0) = _
  after_results; rfl

theorem entry_Az (c : Dev nD) : V1 m ρ c main_arg6 = m ((c : Thread nD τ).loc main_arg6) := by
  show StableHlo.after hostOps0 (W0 m ρ c) (Proc.devRef .tc main_arg6) = _
  after_results

theorem entry_Ar (c : Dev nD) : V1 m ρ c main_arg7 = m ((c : Thread nD τ).loc main_arg7) := by
  show StableHlo.after hostOps0 (W0 m ρ c) (Proc.devRef .tc main_arg7) = _
  after_results

theorem entry_Am (c : Dev nD) : V1 m ρ c main_arg8 = m ((c : Thread nD τ).loc main_arg8) := by
  show StableHlo.after hostOps0 (W0 m ρ c) (Proc.devRef .tc main_arg8) = _
  after_results

theorem entry_idx (c : Dev nD) : V1 m ρ c main_arg0 = m ((c : Thread nD τ).loc main_arg0) := by
  show StableHlo.after hostOps0 (W0 m ρ c) (Proc.devRef .tc main_arg0) = _
  after_results

/-! ## What the last stretch computes from what the second kernel leaves -/

theorem result_eq (c : Dev nD) :
    W4 m ρ c (Proc.devRef .tc main_v29)
      = writeBack (W3 m ρ c (Proc.devRef .tc main_v0)) (W3 m ρ c (Proc.devRef .tc main_arg0))
          (updateRows (W3 m ρ c (Proc.devRef .tc main_v20))) := by
  show StableHlo.after hostOps2 (W3 m ρ c) (Proc.devRef .tc main_v29) = _
  after_results; rfl

end Cert.KernelIdeal.Glue

end
-- ==== Proof.KernelValue.lean ====
/-
  THE IDEALIZED KERNEL PROGRAM'S RESULT, as one function of its arguments.

  Threading the buffer contents through the four stretches: the host operations give the first kernel the state row
  `x`, the weight matrices and the bias rows; the first kernel leaves the gate row `z` and the reset state row `r ∘ x`
  (its third row, `r`, is read by nothing later); the second kernel, entered with those and with `x`, the third matrix
  and the third bias row, leaves the update row `Δ`; the last host operations add `Δ`, cut into two rows, into the state
  table at the team indices.
-/
import proofs.«154067_j39565238731289_2_alg».proof.Proof.KernelRun
import proofs.«154067_j39565238731289_2_alg».proof.Proof.Region0
import proofs.«154067_j39565238731289_2_alg».proof.Proof.Region1
import proofs.«154067_j39565238731289_2_alg».proof.Proof.Glue
import proofs.«154067_j39565238731289_2_alg».proof.Proof.Spec

set_option maxRecDepth 16384

noncomputable section

namespace Cert.KernelIdeal.Whole

open Idealize.ShloMosaic Idealize.ShloMosaic.TcCoe Idealize.SL.Sem Idealize.ShloMosaic.ValueIdx
open Cert.KernelIdeal Cert.KernelIdeal.Gen Cert.GatedUpdate

variable (m : (ℓ : Loc nD τ sig) → Buf (Elt Ideal) ℓ) (ρ : Dev nD → PrngReg)

/-- The state row the kernels work on. -/
abbrev X (c : Dev nD) : RowArr := Glue.stateRow (m ((c : Thread nD τ).loc main_arg0)) (m ((c : Thread nD τ).loc main_arg2))
/-- The three bias rows. -/
abbrev bz (c : Dev nD) : RowArr := Glue.biasAdd (m ((c : Thread nD τ).loc main_arg3)) (m ((c : Thread nD τ).loc main_arg1)) (m ((c : Thread nD τ).loc main_arg9))
abbrev br (c : Dev nD) : RowArr := Glue.biasSub (m ((c : Thread nD τ).loc main_arg4)) (m ((c : Thread nD τ).loc main_arg1)) (m ((c : Thread nD τ).loc main_arg10))
abbrev bm (c : Dev nD) : RowArr := Glue.biasAdd (m ((c : Thread nD τ).loc main_arg5)) (m ((c : Thread nD τ).loc main_arg1)) (m ((c : Thread nD τ).loc main_arg11))
/-- The three weight matrices. -/
abbrev Az (c : Dev nD) : MatArr := (m ((c : Thread nD τ).loc main_arg6))
abbrev Ar (c : Dev nD) : MatArr := (m ((c : Thread nD τ).loc main_arg7))
abbrev Am (c : Dev nD) : MatArr := (m ((c : Thread nD τ).loc main_arg8))

/-- The update row the second kernel leaves. -/
abbrev DX (c : Dev nD) : RowArr :=
  deltaRow one (resetRow (X m c) (Ar m c) (br m c)) (Am m c) (bm m c) (gateRow (X m c) (Az m c) (bz m c)) (X m c)

/-! ## After the first kernel -/

theorem z_row (c : Dev nD) : W2 m ρ c (Proc.devRef .tc main_v19_0) = gateRow (X m c) (Az m c) (bz m c) :=
  (W2_arr m ρ c 5).trans ((Gates.final5 (V1 m ρ) c).trans (by
    show gateRow (V1 m ρ c main_v8) (V1 m ρ c main_arg6) (V1 m ρ c main_v12) = _
    rw [Glue.entry_x, Glue.entry_Az, Glue.entry_bz]))

theorem rx_row (c : Dev nD) : W2 m ρ c (Proc.devRef .tc main_v19_2) = resetRow (X m c) (Ar m c) (br m c) :=
  (W2_arr m ρ c 7).trans ((Gates.final7 (V1 m ρ) c).trans (by
    show resetRow (V1 m ρ c main_v8) (V1 m ρ c main_arg7) (V1 m ρ c main_v15) = _
    rw [Glue.entry_x, Glue.entry_Ar, Glue.entry_br]))

/-- The state row is one of the first kernel's inputs: never written back, it stays as entered. -/
theorem x_kept (c : Dev nD) : W2 m ρ c (Proc.devRef .tc main_v8) = X m c :=
  (W2_arr m ρ c 0).trans (((dat0 (V1 m ρ) c).arrAt_in 0 rfl cfg0.N).trans (Glue.entry_x m ρ c))

theorem am_kept (c : Dev nD) : W2 m ρ c (Proc.devRef .tc main_arg8) = Am m c :=
  (W2_of_ne m ρ c main_arg8 (by decide)).trans (Glue.entry_Am m ρ c)

theorem bm_kept (c : Dev nD) : W2 m ρ c (Proc.devRef .tc main_v18) = bm m c :=
  (W2_of_ne m ρ c main_v18 (by decide)).trans (Glue.entry_bm m ρ c)

/-! ## After the second kernel -/

theorem dx_row (c : Dev nD) : W3 m ρ c (Proc.devRef .tc main_v20) = DX m c :=
  (W3_arr m ρ c 5).trans ((Candidate.final5 (V2 m ρ) c).trans (by
    show deltaRow one (W2 m ρ c (Proc.devRef .tc main_v19_2)) (W2 m ρ c (Proc.devRef .tc main_arg8))
        (W2 m ρ c (Proc.devRef .tc main_v18)) (W2 m ρ c (Proc.devRef .tc main_v19_0)) (W2 m ρ c (Proc.devRef .tc main_v8)) = _
    rw [rx_row, am_kept, bm_kept, z_row, x_kept]))

theorem table_kept (c : Dev nD) : W3 m ρ c (Proc.devRef .tc main_v0) = Glue.table (m ((c : Thread nD τ).loc main_arg2)) :=
  (W3_of_ne m ρ c main_v0 (by decide)).trans ((W2_of_ne m ρ c main_v0 (by decide)).trans (Glue.entry_table m ρ c))

theorem idx_kept (c : Dev nD) : W3 m ρ c (Proc.devRef .tc main_arg0) = (m ((c : Thread nD τ).loc main_arg0)) :=
  (W3_of_ne m ρ c main_arg0 (by decide)).trans ((W2_of_ne m ρ c main_arg0 (by decide)).trans (Glue.entry_idx m ρ c))

/-! ## The result -/

/-- The result array: the update row, cut into two rows, added into the state table at the team indices. -/
theorem result (c : Dev nD) :
    W4 m ρ c (Proc.devRef .tc main_v29)
      = Glue.writeBack (Glue.table (m ((c : Thread nD τ).loc main_arg2))) (m ((c : Thread nD τ).loc main_arg0)) (Glue.updateRows (DX m c)) := by
  rw [Glue.result_eq, table_kept, idx_kept, dx_row]

/-- The run, read: the result array at that function of the arguments, the arguments unchanged. -/
theorem run : θ_run defs (onTc (τ := τ) (main (F := Ideal))) ⟨m, fun _ => 0, ρ⟩ (fun r => ∀ c : Dev nD,
      r.2.mem ((c.tc : Thread nD τ).loc main_v29) = Glue.writeBack (Glue.table (m ((c : Thread nD τ).loc main_arg2))) (m ((c : Thread nD τ).loc main_arg0)) (Glue.updateRows (DX m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result m ρ c), (h c).2⟩) (Named.run m ρ)

end Cert.KernelIdeal.Whole

end
-- ==== Proof.LibNormSum.lean ====
/-
  Extended-real algebra for a normalised neighbour sum. A graph convolution scales each neighbour's contribution by
  the factors `1 / sqrt (degree)` of both end points. One way of computing it multiplies every summand by both
  factors and then sums; another sums first and multiplies the total by the destination's factor afterwards. On the
  extended reals multiplication does not distribute over addition in general (`⊤ + ⊥ = ⊥`), but it does for a
  multiplier that is NON-NEGATIVE and FINITE, whatever the summands are (they may be `±∞`). The factor
  `1 / sqrt (1 + number of neighbours)` is such a multiplier. No program appears in this module.
-/
import Idealize.ShloMosaic.PureOps.Ideal.Laws

noncomputable section

namespace Cert.NormSum

open Idealize.ShloMosaic
open scoped BigOperators

/-- A non-negative finite extended real `cv` distributes over any finite sum of extended reals, infinite summands
    included: `cv * Σ f = Σ cv * f`. Induction on the index set; the step is distributivity of such a multiplier
    over one addition. -/
theorem mul_sum_of_nonneg_ne_top {ι : Type*} (S : Finset ι) (f : ι → EReal) (cv : EReal) (h0 : 0 ≤ cv)
    (ht : cv ≠ ⊤) : cv * ∑ e ∈ S, f e = ∑ e ∈ S, cv * f e := by
  classical
  induction S using Finset.induction_on with
  | empty => simp
  | insert a s ha ih =>
    rw [Finset.sum_insert ha, Finset.sum_insert ha, EReal.left_distrib_of_nonneg_of_ne_top h0 ht, ih]

/-- Pulling the destination's factor out of a normalised sum. With every destination factor `dd e` equal to the one
    non-negative finite `cv`: `cv * ((0 + Σ a·ds) + hp·cv) = (0 + Σ a·(ds·dd)) + hp·(cv·cv)`. The left side
    distributes `cv` over the outer sum and then over the inner one; each term then agrees by commutativity and
    associativity of the extended reals' multiplication. -/
theorem norm_pull {ι : Type*} (S : Finset ι) (a ds dd : ι → EReal) (hp cv : EReal) (h0 : 0 ≤ cv) (ht : cv ≠ ⊤)
    (hdd : ∀ e ∈ S, dd e = cv) :
    cv * ((0 + ∑ e ∈ S, a e * ds e) + hp * cv) = (0 + ∑ e ∈ S, a e * (ds e * dd e)) + hp * (cv * cv) := by
  rw [EReal.left_distrib_of_nonneg_of_ne_top h0 ht, zero_add, zero_add,
    mul_sum_of_nonneg_ne_top S (fun e => a e * ds e) cv h0 ht]
  congr 1
  · refine Finset.sum_congr rfl fun e he => ?_
    rw [hdd e he, mul_comm cv (a e * ds e), mul_assoc]
  · exact mul_left_comm cv hp cv

/-- The single-precision pattern `0x3F800000` (sign 0, biased exponent 127, fraction 0) denotes the extended real
    one: `2 ^ 23 * 2 ^ (127 - 127 - 23) = 1`. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(sqrt r)⁻¹`: neither of its corners (a negative
    argument, a zero argument) applies. -/
theorem rsqrt_coe_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A sum of ones over a finite set, plus one, is the real number `card S + 1`. -/
theorem count_add_one {ι : Type*} (S : Finset ι) :
    (0 + ∑ _e ∈ S, (1 : EReal)) + 1 = (((S.card : ℝ) + 1 : ℝ) : EReal) := by
  rw [zero_add, Finset.sum_const, EReal.nsmul_eq_mul, mul_one, EReal.coe_add, EReal.coe_natCast, EReal.coe_one]

/-- The normalising factor `1 / sqrt (1 + number of neighbours)` is a non-negative finite extended real: its
    argument is the positive real `card S + 1`, where the reciprocal square root is the real `(sqrt _)⁻¹ ≥ 0`. -/
theorem rsqrt_count_nonneg_ne_top {ι : Type*} (S : Finset ι) :
    0 ≤ Ideal.rsqrt ((0 + ∑ _e ∈ S, (1 : EReal)) + 1) ∧ Ideal.rsqrt ((0 + ∑ _e ∈ S, (1 : EReal)) + 1) ≠ ⊤ := by
  have hpos : (0 : ℝ) < (S.card : ℝ) + 1 := by positivity
  rw [count_add_one, rsqrt_coe_pos _ hpos]
  exact ⟨EReal.coe_nonneg.mpr (inv_nonneg.mpr (Real.sqrt_nonneg _)), EReal.coe_ne_top _⟩

end Cert.NormSum

end
-- ==== Proof.RefValue.lean ====
/-
  THE REFERENCE'S UPDATE COLUMN, entry by entry.

  The reference keeps the state as a column `x` `[4096, 1]` and computes
      z = 1 / (1 + e^(-((Az·x + Bz·u) + dz))),   r = 1 / (1 + e^(-((Ar·x + Br·u) − dr))),
      m = tanh((Am·(r ∘ x) + Bm·u) + dm),        Δ = (z ∘ x + (1 − z) ∘ m) − x,
  each product a sum `∑ k, A(j, k) · x(k, 0)`.  The quotient is the logistic function (the word of 1.0 is the unit), so
  entry `(j, 0)` of `Δ` is the gated update of `Spec.lean` in its two-step arrangement, hence `delta` with the summed
  biases.  The three small products `B·u` are kept as they are: the kernel's program computes them by the same operation.
-/
import proofs.«154067_j39565238731289_2_alg».proof.Proof.Gen.ReferenceIdeal.Read
import proofs.«154067_j39565238731289_2_alg».proof.Proof.Spec
import proofs.«154067_j39565238731289_2_alg».proof.Proof.LibNormSum
import Idealize.ShloMosaic.Lib.ValueIdx

noncomputable section

namespace Cert.ReferenceIdeal.RefValue

open Idealize.ShloMosaic Idealize.ShloMosaic.TcCoe Idealize.ShloMosaic.ValueIdx
open Cert.ReferenceIdeal Cert.ReferenceIdeal.Read Cert.GatedUpdate
open scoped BigOperators

variable (x0 : (⟨S2, .i32⟩ : BufTy).Contents (Elt Ideal)) (x1 : (⟨S64, .f32⟩ : BufTy).Contents (Elt Ideal))
  (x2 : (⟨S1x32x2048, .f32⟩ : BufTy).Contents (Elt Ideal)) (x3 x4 x5 : (⟨S4096x64, .f32⟩ : BufTy).Contents (Elt Ideal))
  (x6 x7 x8 : (⟨S4096x4096, .f32⟩ : BufTy).Contents (Elt Ideal)) (x9 x10 x11 : (⟨S4096x1, .f32⟩ : BufTy).Contents (Elt Ideal))

/-- The unit word is the extended real one. -/
theorem one_eq : (FloatOps.ofBits (F := Ideal) .f32 0x3F800000#32 : EReal) = 1 := Cert.NormSum.one_word

/-- A big product's operand indices at output entry `(j, 0)`: row `j` of the matrix against the column. -/
theorem lidx10 (j k : Fin 4096) : lidx_main_v10 (ix2 j 0) k = ix2 j k :=
  funext fun a => Fin.ext (by match a with | ⟨0, _⟩ => rfl | ⟨1, _⟩ => rfl)
theorem ridx10 (j k : Fin 4096) : ridx_main_v10 (ix2 j 0) k = ix2 k 0 :=
  funext fun a => Fin.ext (by match a with | ⟨0, _⟩ => rfl | ⟨1, _⟩ => rfl)
theorem lidx20 (j k : Fin 4096) : lidx_main_v20 (ix2 j 0) k = ix2 j k :=
  funext fun a => Fin.ext (by match a with | ⟨0, _⟩ => rfl | ⟨1, _⟩ => rfl)
theorem ridx20 (j k : Fin 4096) : ridx_main_v20 (ix2 j 0) k = ix2 k 0 :=
  funext fun a => Fin.ext (by match a with | ⟨0, _⟩ => rfl | ⟨1, _⟩ => rfl)
theorem lidx31 (j k : Fin 4096) : lidx_main_v31 (ix2 j 0) k = ix2 j k :=
  funext fun a => Fin.ext (by match a with | ⟨0, _⟩ => rfl | ⟨1, _⟩ => rfl)
theorem ridx31 (j k : Fin 4096) : ridx_main_v31 (ix2 j 0) k = ix2 k 0 :=
  funext fun a => Fin.ext (by match a with | ⟨0, _⟩ => rfl | ⟨1, _⟩ => rfl)

/-- The update gate at entry `(j, 0)`. -/
theorem z_at (j : Fin 4096) :
    val_main_v19 (F := Ideal) x0 x1 x2 x3 x6 x9 (ix2 j 0)
      = Ideal.logistic (((∑ k : Fin 4096, x6 (ix2 j k) * val_main_v8 (F := Ideal) x0 x2 (ix2 k 0))
          + val_main_v11 (F := Ideal) x1 x3 (ix2 j 0)) + x9 (ix2 j 0)) := by
  rw [val_main_v19_apply, val_main_v18_apply, val_main_cst_1_apply, val_main_v17_apply, val_main_v16_apply,
    val_main_cst_apply, val_main_v15_apply, val_main_v14_apply, val_main_v13_apply, val_main_v12_apply,
    val_main_v10_apply, one_eq]
  simp only [lidx10, ridx10]
  rfl

/-- The reset gate at entry `(j, 0)`. -/
theorem r_at (j : Fin 4096) :
    val_main_v29 (F := Ideal) x0 x1 x2 x4 x7 x10 (ix2 j 0)
      = Ideal.logistic (((∑ k : Fin 4096, x7 (ix2 j k) * val_main_v8 (F := Ideal) x0 x2 (ix2 k 0))
          + val_main_v21 (F := Ideal) x1 x4 (ix2 j 0)) - x10 (ix2 j 0)) := by
  rw [val_main_v29_apply, val_main_v28_apply, val_main_cst_3_apply, val_main_v27_apply, val_main_v26_apply,
    val_main_cst_2_apply, val_main_v25_apply, val_main_v24_apply, val_main_v23_apply, val_main_v22_apply,
    val_main_v20_apply, one_eq]
  simp only [lidx20, ridx20]
  rfl

/-- The update column at entry `(j, 0)`: the gated update of the state column, with the summed biases. -/
theorem delta_at (j : Fin 4096) :
    val_main_v41 (F := Ideal) x0 x1 x2 x3 x4 x5 x6 x7 x8 x9 x10 x11 (ix2 j 0)
      = delta one (fun k => val_main_v8 (F := Ideal) x0 x2 (ix2 k 0)) (matOf x6) (matOf x7) (matOf x8)
          (fun i => val_main_v11 (F := Ideal) x1 x3 (ix2 i 0) + x9 (ix2 i 0))
          (fun i => val_main_v21 (F := Ideal) x1 x4 (ix2 i 0) - x10 (ix2 i 0))
          (fun i => val_main_v32 (F := Ideal) x1 x5 (ix2 i 0) + x11 (ix2 i 0)) j := by
  rw [← delta_two_step]
  rw [val_main_v41_apply, val_main_v40_apply, val_main_v36_apply, val_main_v39_apply, val_main_v38_apply,
    val_main_v37_apply, val_main_cst_4_apply, val_main_v35_apply, val_main_v34_apply, val_main_v33_apply,
    val_main_v31_apply, z_at]
  simp only [lidx31, ridx31, val_main_v30_apply, r_at]
  rfl

end Cert.ReferenceIdeal.RefValue

end
-- ==== Proof.Bridge.lean ====
/-
  THE TWO PROGRAMS COMPUTE ONE FUNCTION.

  The kernel program keeps the state as a row `[1, 4096]` and each bias as a row; the reference keeps them as columns
  `[4096, 1]`.  Both are reshapes of the same gathered pair of table rows (of the same small products), so entry `(0, j)`
  of a row is entry `(j, 0)` of the column: both sit at position `j` of the row-major order.  With that, entry `(0, j)`
  of the kernel program's update row and entry `(j, 0)` of the reference's update column are the same gated update
  (`delta`) of the same vectors, and the two-row reshapes of the update agree.  Both programs then add those two rows into
  the same state table at the same team indices, by the same operations, so their results are equal.
-/
import proofs.«154067_j39565238731289_2_alg».proof.Proof.KernelValue
import proofs.«154067_j39565238731289_2_alg».proof.Proof.RefValue
import Idealize.ShloMosaic.Lib.Pipeline.Value
import Idealize.ShloMosaic.Lib.ValueIdx

set_option maxRecDepth 16384

noncomputable section

namespace Cert.Bridge

open Idealize.ShloMosaic Idealize.ShloMosaic.TcCoe Idealize.ShloMosaic.ValueIdx
open Cert.GatedUpdate
open Cert.KernelIdeal (S2 S64 S1x32x2048 S4096x64 S4096x4096 S4096x1 S2x2048 S1x4096)
open Cert.KernelIdeal.Glue
open Cert.ReferenceIdeal.Read

variable (x0 : (⟨S2, .i32⟩ : BufTy).Contents (Elt Ideal)) (x1 : (⟨S64, .f32⟩ : BufTy).Contents (Elt Ideal))
  (x2 : (⟨S1x32x2048, .f32⟩ : BufTy).Contents (Elt Ideal)) (x3 x4 x5 : (⟨S4096x64, .f32⟩ : BufTy).Contents (Elt Ideal))
  (x6 x7 x8 : (⟨S4096x4096, .f32⟩ : BufTy).Contents (Elt Ideal)) (x9 x10 x11 : (⟨S4096x1, .f32⟩ : BufTy).Contents (Elt Ideal))

/-! ## The shared front: the same table, the same indices, the same gathered rows, the same small products -/

theorem table_eq : table x2 = val_main_v0 (F := Ideal) x2 := rfl
theorem idx_eq : teamIdx x0 = val_main_v48 (F := Ideal) x0 := rfl
theorem rows_eq : teamRows x0 x2 = val_main_v7 (F := Ideal) x0 x2 := rfl
theorem bzu_eq : Host.dotGeneral (φ₁ := .f32) (φ₂ := .f32) Cert.KernelIdeal.dot_S4096x64_S64x1_S4096x1_1_0_0_1_n_n none x3 (inputCol x1) = val_main_v11 (F := Ideal) x1 x3 := rfl
theorem bru_eq : Host.dotGeneral (φ₁ := .f32) (φ₂ := .f32) Cert.KernelIdeal.dot_S4096x64_S64x1_S4096x1_1_0_0_1_n_n none x4 (inputCol x1) = val_main_v21 (F := Ideal) x1 x4 := rfl
theorem bmu_eq : Host.dotGeneral (φ₁ := .f32) (φ₂ := .f32) Cert.KernelIdeal.dot_S4096x64_S64x1_S4096x1_1_0_0_1_n_n none x5 (inputCol x1) = val_main_v32 (F := Ideal) x1 x5 := rfl

/-! ## A row's entry `(0, j)` is the column's entry `(j, 0)` -/

/-- A column `[4096, 1]` laid out as a row `[1, 4096]`. -/
theorem col_as_row (v : (⟨S4096x1, .f32⟩ : BufTy).Contents (Elt Ideal)) (h : S4096x1.ShapeCasts S1x4096) (j : Fin 4096) :
    shapeCast S1x4096 v h (ix2 0 j) = v (ix2 j 0) :=
  shapeCast_apply v h (ix2 0 j) (ix2 j 0)
    (by rewrite [Shape.rowMajor_val_two, Shape.rowMajor_val_two]; show j.val * 1 + 0 = 0 * 4096 + j.val; omega)

/-- The state row's entry `(0, k)` is the state column's entry `(k, 0)`: both are entry `(k / 2048, k % 2048)` of the two
    gathered rows. -/
theorem state_entry (k : Fin 4096) : stateRow x0 x2 (ix2 0 k) = val_main_v8 (F := Ideal) x0 x2 (ix2 k 0) := by
  rw [val_main_v8_apply, ← rows_eq]
  unfold stateRow
  exact shapeCast_apply (teamRows x0 x2) _ (ix2 0 k) (idx_main_v8 (ix2 k 0))
    (by rewrite [Shape.rowMajor_val_two, Shape.rowMajor_val_two]
        show (k.val * 1 + 0) / 2048 * 2048 + (k.val * 1 + 0) % 2048 = 0 * 4096 + k.val; omega)

theorem bz_entry (j : Fin 4096) :
    biasAdd x3 x1 x9 (ix2 0 j) = val_main_v11 (F := Ideal) x1 x3 (ix2 j 0) + x9 (ix2 j 0) := by
  unfold biasAdd
  rw [col_as_row, bzu_eq]; rfl

theorem br_entry (j : Fin 4096) :
    biasSub x4 x1 x10 (ix2 0 j) = val_main_v21 (F := Ideal) x1 x4 (ix2 j 0) - x10 (ix2 j 0) := by
  unfold biasSub
  rw [col_as_row, bru_eq]; rfl

theorem bm_entry (j : Fin 4096) :
    biasAdd x5 x1 x11 (ix2 0 j) = val_main_v32 (F := Ideal) x1 x5 (ix2 j 0) + x11 (ix2 j 0) := by
  unfold biasAdd
  rw [col_as_row, bmu_eq]; rfl

/-! ## The update: row entry `(0, j)` against column entry `(j, 0)` -/

/-- The kernel program's update row. -/
abbrev DXrow : RowArr :=
  deltaRow one (resetRow (stateRow x0 x2) x7 (biasSub x4 x1 x10)) x8 (biasAdd x5 x1 x11)
    (gateRow (stateRow x0 x2) x6 (biasAdd x3 x1 x9)) (stateRow x0 x2)

theorem update_entry (j : Fin 4096) :
    DXrow x0 x1 x2 x3 x4 x5 x6 x7 x8 x9 x10 x11 (ix2 0 j)
      = val_main_v41 (F := Ideal) x0 x1 x2 x3 x4 x5 x6 x7 x8 x9 x10 x11 (ix2 j 0) := by
  rw [Cert.ReferenceIdeal.RefValue.delta_at]
  show delta one (rowVec (stateRow x0 x2)) (matOf x6) (matOf x7) (matOf x8) (rowVec (biasAdd x3 x1 x9))
      (rowVec (biasSub x4 x1 x10)) (rowVec (biasAdd x5 x1 x11)) j = _
  have ex : rowVec (stateRow x0 x2) = fun k => val_main_v8 (F := Ideal) x0 x2 (ix2 k 0) := funext (state_entry x0 x2)
  have ez : rowVec (biasAdd x3 x1 x9) = fun i => val_main_v11 (F := Ideal) x1 x3 (ix2 i 0) + x9 (ix2 i 0) := funext (bz_entry x1 x3 x9)
  have er : rowVec (biasSub x4 x1 x10) = fun i => val_main_v21 (F := Ideal) x1 x4 (ix2 i 0) - x10 (ix2 i 0) := funext (br_entry x1 x4 x10)
  have em : rowVec (biasAdd x5 x1 x11) = fun i => val_main_v32 (F := Ideal) x1 x5 (ix2 i 0) + x11 (ix2 i 0) := funext (bm_entry x1 x5 x11)
  rw [ex, ez, er, em]

/-- Cut into two rows, the update row and the update column are the same `[2, 2048]` array. -/
theorem update_rows :
    updateRows (DXrow x0 x1 x2 x3 x4 x5 x6 x7 x8 x9 x10 x11)
      = val_main_v42 (F := Ideal) x0 x1 x2 x3 x4 x5 x6 x7 x8 x9 x10 x11 := by
  funext i
  have h0 : (i 0).val < 2 := (i 0).isLt
  have h1 : (i 1).val < 2048 := (i 1).isLt
  have hJ : (i 0).val * 2048 + (i 1).val < 4096 := by omega
  rw [val_main_v42_apply]
  have ei : idx_main_v42 i = ix2 (⟨(i 0).val * 2048 + (i 1).val, hJ⟩ : Fin 4096) 0 :=
    funext fun a => Fin.ext (by
      match a with
      | ⟨0, _⟩ => show ((i 0).val * 2048 + (i 1).val) / 1 = (i 0).val * 2048 + (i 1).val; omega
      | ⟨1, _⟩ => rfl)
  rw [ei, ← update_entry]
  unfold updateRows
  exact shapeCast_apply (DXrow x0 x1 x2 x3 x4 x5 x6 x7 x8 x9 x10 x11) _ i
    (ix2 0 (⟨(i 0).val * 2048 + (i 1).val, hJ⟩ : Fin 4096))
    (by rewrite [Shape.rowMajor_val_two, Shape.rowMajor_val_two]
        show 0 * 4096 + ((i 0).val * 2048 + (i 1).val) = (i 0).val * 2048 + (i 1).val; omega)

/-! ## The results -/

/-- The kernel program's result is the reference's. -/
theorem result_eq :
    writeBack (table x2) x0 (updateRows (DXrow x0 x1 x2 x3 x4 x5 x6 x7 x8 x9 x10 x11))
      = val_main_v50 (F := Ideal) x0 x1 x2 x3 x4 x5 x6 x7 x8 x9 x10 x11 := by
  rw [update_rows]
  rfl

end Cert.Bridge

end
-- ==== Proof.lean ====
/-
  A gated recurrent update of two teams' state vectors, by two tiled matrix–vector kernels, against the plain
  formulation.

  Two rows of a state table `[32, 2048]` are selected by two team indices and laid side by side as one state vector `x`
  of length 4096.  With three `4096 × 4096` matrices `Az, Ar, Am`, three `4096 × 64` matrices `Bz, Br, Bm`, an input vector
  `u` and three columns `dz, dr, dm`:
      z = σ(Az·x + Bz·u + dz),   r = σ(Ar·x + Br·u − dr),   m = tanh(Am·(r ∘ x) + Bm·u + dm),   Δ = (z ∘ x + (1 − z) ∘ m) − x,
  and `Δ`, cut back into two rows, is added into the table at the same two indices.

  The kernel program computes the biases `B·u ± d` first, as rows; its first kernel computes `z`, `r` and `r ∘ x` eight
  blocks of 512 columns at a time, its second kernel `Δ` likewise, each product a row of the state against a row of
  the weight block.  The reference computes everything on columns, each product a row of the matrix against the
  state column, and adds each bias in two steps.  On the extended reals the two agree entry by entry: the sums differ
  only in the order of the two factors of each term and in the grouping of the bias terms, the logistic function is
  the quotient the reference spells out, and a change of number format is the identity.  Nothing needs to be finite.

  The modules: `Spec` (the update on plain vectors, and the regrouping law), `KernelRun` (the kernel program's run, its
  result array named), `Region0` and `Region1` (what each kernel leaves in its result rows), `Glue` (the host operations
  around the kernels), `KernelValue` (the kernel program's result as one function of the arguments), `RefValue` (the
  reference's update column entry by entry), `Bridge` (the two results are equal).  Here: the five claims.
-/
import proofs.«154067_j39565238731289_2_alg».proof.Defs
import proofs.«154067_j39565238731289_2_alg».proof.Proof.Gen.Kernel
import proofs.«154067_j39565238731289_2_alg».proof.Proof.Gen.Kernel.Skeleton
import proofs.«154067_j39565238731289_2_alg».proof.Proof.Gen.Kernel.Launch
import proofs.«154067_j39565238731289_2_alg».proof.Proof.Gen.Kernel.Points
import proofs.«154067_j39565238731289_2_alg».proof.Proof.Gen.Kernel.Frame
import proofs.«154067_j39565238731289_2_alg».proof.Proof.Gen.KernelIdeal
import proofs.«154067_j39565238731289_2_alg».proof.Proof.Gen.KernelIdeal.Skeleton
import proofs.«154067_j39565238731289_2_alg».proof.Proof.Gen.KernelIdeal.Launch
import proofs.«154067_j39565238731289_2_alg».proof.Proof.Gen.KernelIdeal.Points
import proofs.«154067_j39565238731289_2_alg».proof.Proof.Gen.KernelIdeal.Frame
import proofs.«154067_j39565238731289_2_alg».proof.Proof.Gen.ReferenceIdeal
import proofs.«154067_j39565238731289_2_alg».proof.Proof.Gen.ReferenceIdeal.Run
import proofs.«154067_j39565238731289_2_alg».proof.Proof.Gen.ReferenceIdeal.Read
import proofs.«154067_j39565238731289_2_alg».proof.Proof.Gen.Pre_finite_inputs
import proofs.«154067_j39565238731289_2_alg».proof.Proof.Bridge
import Idealize.ShloMosaic.Adequacy
import Idealize.ShloMosaic.Init

noncomputable section

namespace Cert.Proof

open Idealize.ShloMosaic Idealize.SL.Sem

/-- The kernel program at machine words runs, and its arguments end unchanged. -/
theorem frame_k : Cert.frame_Kernel := fun m ρ _ => Cert.Kernel.Gen.frame m ρ

/-- So does it read on extended reals. -/
theorem frame_ki : Cert.frame_KernelIdeal := fun m ρ _ => Cert.KernelIdeal.Gen.frame m ρ

/-- The reference runs, and its arguments end unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel program was rewritten on the way to extended reals. -/
theorem preserves : Cert.preserves_Kernel_KernelIdeal := trivial

/-- From memories that agree on the arguments, the kernel program's result array and the reference's hold the same
    extended reals: the state table with the gated update of the two selected rows added in. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v50_eq, e0, e1, e2, e3, e4, e5, e6, e7, e8, e9, e10, e11]
  exact (Cert.Bridge.result_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
